-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S600000 : Shape := ⟨1, ![600000]⟩
abbrev S300000 : Shape := ⟨1, ![300000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S20000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S600000 32) (main_arg9 : IVec S600000 32) (main_arg10 : IVec S300000 32) (main_arg11 : IVec S300000 32) (main_arg12 : IVec S300000 32) (main_arg13 : IVec S300000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S600000 : Shape := ⟨1, ![600000]⟩
abbrev S300000 : Shape := ⟨1, ![300000]⟩
abbrev S_ : Shape := ⟨0, ![]⟩
abbrev S50000 : Shape := ⟨1, ![50000]⟩
abbrev S600000x1 : Shape := ⟨2, ![600000, 1]⟩
abbrev S300000x1 : Shape := ⟨2, ![300000, 1]⟩
abbrev S20000 : Shape := ⟨1, ![20000]⟩
abbrev S50000x1 : Shape := ⟨2, ![50000, 1]⟩
abbrev S2000x128 : Shape := ⟨2, ![2000, 128]⟩
abbrev S2000x1 : Shape := ⟨2, ![2000, 1]⟩
abbrev S20000x1 : Shape := ⟨2, ![20000, 1]⟩
abbrev S600000x128 : Shape := ⟨2, ![600000, 128]⟩
abbrev S1x128 : Shape := ⟨2, ![1, 128]⟩
abbrev S300000x128 : Shape := ⟨2, ![300000, 128]⟩

abbrev nBuf : Space → Nat
  | .hbm => 138
  | .vmem => 19
  | .smem => 0
  | _ => 0

abbrev hbmTy0_0 (i : Nat) : BufTy := match i % 128 with
  | 0 => ⟨S50000x128, .f32⟩
  | 1 => ⟨S20000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S600000, .i32⟩
  | 9 => ⟨S600000, .i32⟩
  | 10 => ⟨S300000, .i32⟩
  | 11 => ⟨S300000, .i32⟩
  | 12 => ⟨S300000, .i32⟩
  | 13 => ⟨S300000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S300000, .f32⟩
  | 34 => ⟨S_, .f32⟩
  | 35 => ⟨S50000, .f32⟩
  | 36 => ⟨S300000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S_, .f32⟩
  | 43 => ⟨S20000, .f32⟩
  | 44 => ⟨S300000x1, .i32⟩
  | 45 => ⟨S20000, .f32⟩
  | 46 => ⟨S_, .f32⟩
  | 47 => ⟨S_, .f32⟩
  | 48 => ⟨S20000, .f32⟩
  | 49 => ⟨S20000, .f32⟩
  | 50 => ⟨S_, .f32⟩
  | 51 => ⟨S300000, .f32⟩
  | 52 => ⟨S_, .f32⟩
  | 53 => ⟨S20000, .f32⟩
  | 54 => ⟨S300000x1, .i32⟩
  | 55 => ⟨S20000, .f32⟩
  | 56 => ⟨S_, .f32⟩
  | 57 => ⟨S_, .f32⟩
  | 58 => ⟨S20000, .f32⟩
  | 59 => ⟨S20000, .f32⟩
  | 60 => ⟨S_, .f32⟩
  | 61 => ⟨S50000, .f32⟩
  | 62 => ⟨S300000x1, .i32⟩
  | 63 => ⟨S50000, .f32⟩
  | 64 => ⟨S_, .f32⟩
  | 65 => ⟨S_, .f32⟩
  | 66 => ⟨S50000, .f32⟩
  | 67 => ⟨S50000, .f32⟩
  | 68 => ⟨S50000x1, .f32⟩
  | 69 => ⟨S50000x1, .f32⟩
  | 70 => ⟨S50000x128, .bf16⟩
  | 71 => ⟨S50000x128, .bf16⟩
  | 72 => ⟨S20000x1, .f32⟩
  | 73 => ⟨S20000x128, .bf16⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .bf16⟩
  | 83 => ⟨S600000x128, .f32⟩
  | 84 => ⟨S_, .f32⟩
  | 85 => ⟨S50000x128, .f32⟩
  | 86 => ⟨S600000x1, .i32⟩
  | 87 => ⟨S50000x128, .f32⟩
  | 88 => ⟨S50000, .f32⟩
  | 89 => ⟨S50000x1, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .i32⟩
  | 96 => ⟨S300000, .i32⟩
  | 97 => ⟨S300000, .i1⟩
  | 98 => ⟨S_, .i32⟩
  | 99 => ⟨S300000, .i32⟩
  | 100 => ⟨S300000, .i32⟩
  | 101 => ⟨S300000, .i32⟩
  | 102 => ⟨S300000x1, .i32⟩
  | 103 => ⟨S300000x128, .bf16⟩
  | 104 => ⟨S300000x128, .f32⟩
  | 105 => ⟨S_, .f32⟩
  | 106 => ⟨S50000x128, .f32⟩
  | 107 => ⟨S300000x1, .i32⟩
  | 108 => ⟨S50000x128, .f32⟩
  | 109 => ⟨S50000, .f32⟩
  | 110 => ⟨S50000x1, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000x128, .bf16⟩
  | 126 => ⟨S300000x128, .f32⟩
  | 127 => ⟨S_, .f32⟩
  | _ => ⟨S50000x128, .f32⟩

abbrev hbmTy0_1 (i : Nat) : BufTy := match i % 128 with
  | 0 => ⟨S20000x128, .f32⟩
  | 1 => ⟨S300000x1, .i32⟩
  | 2 => ⟨S20000x128, .f32⟩
  | 3 => ⟨S20000, .f32⟩
  | 4 => ⟨S20000x1, .f32⟩
  | 5 => ⟨S20000x128, .f32⟩
  | 6 => ⟨S20000x128, .f32⟩
  | 7 => ⟨S1x128, .f32⟩
  | 8 => ⟨S20000x128, .f32⟩
  | 9 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x1, .f32⟩
  | .local _ .vmem, ⟨16, _⟩ => ⟨S2000x1, .f32⟩
  | .local _ .vmem, ⟨17, _⟩ => ⟨S2000x128, .bf16⟩
  | .local _ .vmem, ⟨18, _⟩ => ⟨S2000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_cst_5 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_6 : Ref sig .tc := ⟨.hbm, 38, rfl⟩
abbrev main_call2_v0 : Ref sig .tc := ⟨.hbm, 39, rfl⟩
abbrev main_call2_v1 : Ref sig .tc := ⟨.hbm, 40, rfl⟩
abbrev main_v13 : Ref sig .tc := ⟨.hbm, 41, rfl⟩
abbrev main_cst_7 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_v17 : Ref sig .tc := ⟨.hbm, 49, rfl⟩
abbrev main_cst_9 : Ref sig .tc := ⟨.hbm, 50, rfl⟩
abbrev main_v18 : Ref sig .tc := ⟨.hbm, 51, rfl⟩
abbrev main_cst_10 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_11 : Ref sig .tc := ⟨.hbm, 56, rfl⟩
abbrev main_call4_v0 : Ref sig .tc := ⟨.hbm, 57, rfl⟩
abbrev main_call4_v1 : Ref sig .tc := ⟨.hbm, 58, rfl⟩
abbrev main_v22 : Ref sig .tc := ⟨.hbm, 59, rfl⟩
abbrev main_cst_12 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_13 : Ref sig .tc := ⟨.hbm, 64, rfl⟩
abbrev main_call5_v0 : Ref sig .tc := ⟨.hbm, 65, rfl⟩
abbrev main_call5_v1 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29_0 : Ref sig .tc := ⟨.hbm, 70, rfl⟩
abbrev main_v29_1 : Ref sig .tc := ⟨.hbm, 71, rfl⟩
abbrev main_v30 : Ref sig .tc := ⟨.hbm, 72, rfl⟩
abbrev main_v31 : Ref sig .tc := ⟨.hbm, 73, rfl⟩
abbrev main_c : Ref sig .tc := ⟨.hbm, 74, rfl⟩
abbrev main_v32 : Ref sig .tc := ⟨.hbm, 75, rfl⟩
abbrev main_v33 : Ref sig .tc := ⟨.hbm, 76, rfl⟩
abbrev main_c_14 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_15 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_16 : Ref sig .tc := ⟨.hbm, 95, rfl⟩
abbrev main_v50 : Ref sig .tc := ⟨.hbm, 96, rfl⟩
abbrev main_v51 : Ref sig .tc := ⟨.hbm, 97, rfl⟩
abbrev main_c_17 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_18 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_19 : Ref sig .tc := ⟨.hbm, 117, rfl⟩
abbrev main_v69 : Ref sig .tc := ⟨.hbm, 118, rfl⟩
abbrev main_v70 : Ref sig .tc := ⟨.hbm, 119, rfl⟩
abbrev main_c_20 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_21 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S20000 : S_.BroadcastsInDim S20000 (![] : Fin 0 → Fin S20000.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  shapeCasts_S20000_S20000x1 : S20000.ShapeCasts S20000x1
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  scatter_S50000_S600000x1_S600000_n_0_0_1_wf : ScatterDims.WF S50000 S600000x1 S600000 [] [0] [0] 1
  scatter_S50000_S300000x1_S300000_n_0_0_1_wf : ScatterDims.WF S50000 S300000x1 S300000 [] [0] [0] 1
  scatter_S20000_S300000x1_S300000_n_0_0_1_wf : ScatterDims.WF S20000 S300000x1 S300000 [] [0] [0] 1
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  gather_S20000x128_S300000x1_S300000x128_1_0_n_n_0_1_1128_wf : GatherDims.WF S20000x128 S300000x1 S300000x128 [1] [0] [] [0] [] 1 ![1, 128]
  scatter_S50000x128_S300000x1_S300000x128_1_0_0_1_wf : ScatterDims.WF S50000x128 S300000x1 S300000x128 [1] [0] [0] 1
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .bf16 = 32 ∨ (Rect.block (s := S20000x128) S2000x128.size (cc1_transform_3 i) (hinb1_3 i)).WholeWords (EltTy.packing .bf16)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S600000 : Shape := ⟨1, ![600000]⟩
abbrev S300000 : Shape := ⟨1, ![300000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S20000 : Shape := ⟨1, ![20000]⟩
abbrev S300000x1 : Shape := ⟨2, ![300000, 1]⟩
abbrev S20000x1 : Shape := ⟨2, ![20000, 1]⟩
abbrev S300000x128 : Shape := ⟨2, ![300000, 128]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S20000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S600000, .i32⟩
  | 9 => ⟨S600000, .i32⟩
  | 10 => ⟨S300000, .i32⟩
  | 11 => ⟨S300000, .i32⟩
  | 12 => ⟨S300000, .i32⟩
  | 13 => ⟨S300000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S_, .f32⟩
  | 49 => ⟨S50000x128, .f32⟩
  | 50 => ⟨S600000x1, .i32⟩
  | 51 => ⟨S50000x128, .f32⟩
  | 52 => ⟨S_, .f32⟩
  | 53 => ⟨S50000, .f32⟩
  | 54 => ⟨S50000, .f32⟩
  | 55 => ⟨S50000x1, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S300000, .f32⟩
  | 63 => ⟨S_, .f32⟩
  | 64 => ⟨S20000, .f32⟩
  | 65 => ⟨S300000x1, .i32⟩
  | 66 => ⟨S20000, .f32⟩
  | 67 => ⟨S_, .f32⟩
  | 68 => ⟨S_, .f32⟩
  | 69 => ⟨S20000, .f32⟩
  | 70 => ⟨S20000, .f32⟩
  | 71 => ⟨S_, .f32⟩
  | 72 => ⟨S50000, .f32⟩
  | 73 => ⟨S300000x1, .i32⟩
  | 74 => ⟨S50000, .f32⟩
  | 75 => ⟨S_, .f32⟩
  | 76 => ⟨S_, .f32⟩
  | 77 => ⟨S50000, .f32⟩
  | 78 => ⟨S50000, .f32⟩
  | 79 => ⟨S20000x128, .f32⟩
  | 80 => ⟨S_, .f32⟩
  | 81 => ⟨S20000, .f32⟩
  | 82 => ⟨S20000, .f32⟩
  | 83 => ⟨S20000x1, .f32⟩
  | 84 => ⟨S20000x128, .f32⟩
  | 85 => ⟨S20000x128, .f32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x128, .f32⟩
  | 95 => ⟨S_, .f32⟩
  | 96 => ⟨S50000x128, .f32⟩
  | 97 => ⟨S300000x1, .i32⟩
  | 98 => ⟨S50000x128, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S300000, .f32⟩
  | 111 => ⟨S_, .f32⟩
  | 112 => ⟨S50000, .f32⟩
  | 113 => ⟨S300000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S_, .f32⟩
  | 120 => ⟨S20000, .f32⟩
  | 121 => ⟨S300000x1, .i32⟩
  | 122 => ⟨S20000, .f32⟩
  | 123 => ⟨S_, .f32⟩
  | 124 => ⟨S_, .f32⟩
  | 125 => ⟨S20000, .f32⟩
  | 126 => ⟨S20000, .f32⟩
  | 127 => ⟨S50000x128, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x128, .f32⟩
  | 15 => ⟨S_, .f32⟩
  | 16 => ⟨S20000x128, .f32⟩
  | 17 => ⟨S300000x1, .i32⟩
  | 18 => ⟨S20000x128, .f32⟩
  | 19 => ⟨S_, .f32⟩
  | 20 => ⟨S20000, .f32⟩
  | 21 => ⟨S20000, .f32⟩
  | 22 => ⟨S20000x1, .f32⟩
  | 23 => ⟨S20000x128, .f32⟩
  | 24 => ⟨S20000x128, .f32⟩
  | 25 => ⟨S1x128, .f32⟩
  | 26 => ⟨S20000x128, .f32⟩
  | 27 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_cst_4 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_10 : Ref sig .tc := ⟨.hbm, 67, rfl⟩
abbrev main_call2_v0 : Ref sig .tc := ⟨.hbm, 68, rfl⟩
abbrev main_call2_v1 : Ref sig .tc := ⟨.hbm, 69, rfl⟩
abbrev main_v37 : Ref sig .tc := ⟨.hbm, 70, rfl⟩
abbrev main_cst_11 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_12 : Ref sig .tc := ⟨.hbm, 75, rfl⟩
abbrev main_call3_v0 : Ref sig .tc := ⟨.hbm, 76, rfl⟩
abbrev main_call3_v1 : Ref sig .tc := ⟨.hbm, 77, rfl⟩
abbrev main_v41 : Ref sig .tc := ⟨.hbm, 78, rfl⟩
abbrev main_v42 : Ref sig .tc := ⟨.hbm, 79, rfl⟩
abbrev main_cst_13 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_14 : Ref sig .tc := ⟨.hbm, 86, rfl⟩
abbrev main_v48 : Ref sig .tc := ⟨.hbm, 87, rfl⟩
abbrev main_v49 : Ref sig .tc := ⟨.hbm, 88, rfl⟩
abbrev main_c_15 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_16 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_17 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_18 : Ref sig .tc := ⟨.hbm, 109, rfl⟩
abbrev main_v67 : Ref sig .tc := ⟨.hbm, 110, rfl⟩
abbrev main_cst_19 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_20 : Ref sig .tc := ⟨.hbm, 115, rfl⟩
abbrev main_call4_v0 : Ref sig .tc := ⟨.hbm, 116, rfl⟩
abbrev main_call4_v1 : Ref sig .tc := ⟨.hbm, 117, rfl⟩
abbrev main_v71 : Ref sig .tc := ⟨.hbm, 118, rfl⟩
abbrev main_cst_21 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_22 : Ref sig .tc := ⟨.hbm, 123, rfl⟩
abbrev main_call5_v0 : Ref sig .tc := ⟨.hbm, 124, rfl⟩
abbrev main_call5_v1 : Ref sig .tc := ⟨.hbm, 125, rfl⟩
abbrev main_v75 : Ref sig .tc := ⟨.hbm, 126, rfl⟩
abbrev main_v76 : Ref sig .tc := ⟨.hbm, 127, rfl⟩
abbrev main_cst_23 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_24 : Ref sig .tc := ⟨.hbm, 134, rfl⟩
abbrev main_v82 : Ref sig .tc := ⟨.hbm, 135, rfl⟩
abbrev main_v83 : Ref sig .tc := ⟨.hbm, 136, rfl⟩
abbrev main_c_25 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_26 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_27 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S300000 : S_.BroadcastsInDim S300000 (![] : Fin 0 → Fin S300000.rank)
  bcast_S_S20000 : S_.BroadcastsInDim S20000 (![] : Fin 0 → Fin S20000.rank)
  bcast_S300000_S300000x1_0 : S300000.BroadcastsInDim S300000x1 (![0] : Fin 1 → Fin S300000x1.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S20000_S300000x1_S300000_n_0_0_1_wf : ScatterDims.WF S20000 S300000x1 S300000 [] [0] [0] 1
  scatter_S50000_S300000x1_S300000_n_0_0_1_wf : ScatterDims.WF S50000 S300000x1 S300000 [] [0] [0] 1
  dot_S20000x128_S128x128_S20000x128_1_0_0_1_n_n_wf : DotDims.WF S20000x128 S128x128 S20000x128 [1] [0] [0] [1] [] []
  gather_S20000x128_S300000x1_S300000x128_1_0_n_n_0_1_1128_wf : GatherDims.WF S20000x128 S300000x1 S300000x128 [1] [0] [] [0] [] 1 ![1, 128]
  scatter_S50000x128_S300000x1_S300000x128_1_0_0_1_wf : ScatterDims.WF S50000x128 S300000x1 S300000x128 [1] [0] [0] 1
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf

class Facts : Prop extends Facts₀ where

variable [Facts]
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«159256_j69793218560321_2_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.LibCountMean.lean ====
/-
  Counts and means on the extended reals.

  A count — a scatter-add of ones into zeros along a column of row numbers — holds at every entry a nonnegative
  real number: the number of updates that land there. The larger of such a number and 1 is a real not below 1, and
  for a real divisor c not below 1 every extended real x, the infinities included, has x · (1 / c) = x / c. So a
  segment mean written as a sum times the reciprocal count and one written as the sum divided by the count agree
  with no finiteness assumed of the sums. Also the host's quotient of two arrays read at an index.
-/
import Idealize.ShloMosaic.Lib.ValueIdx
import Idealize.ShloMosaic.PureOps.Ideal
import proofs.«159256_j69793218560321_2_alg».proof.Proof.LibScatterSum
import proofs.«159256_j69793218560321_2_alg».proof.Proof.LibGcnLaws

noncomputable section

open scoped BigOperators

namespace Cert.LibCountMean

open Idealize.ShloMosaic Idealize.ShloMosaic.ValueIdx

/-- A scatter of ones into zeros holds, at every entry, a nonnegative real: the number of updates landing there. -/
theorem count_real {N E : Nat} (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ 32) (u : (⟨1, ![E]⟩ : Shape).Idx → EReal)
    (hz : ∀ i, z i = 0) (hu : ∀ j, u j = 1) (p : Fin N) :
    ∃ r : ℝ, 0 ≤ r ∧ Ideal.hostScatterAdd (RowScatter.vecDims N E wf) z idx u (ix1 p) = (r : EReal) := by
  rw [RowScatter.vecScatterAdd_apply, hz]
  simp only [hu]
  obtain ⟨r, hr, hs⟩ := GcnLaws.sum_zero_one_real
    (Finset.univ.filter (fun e : Fin E => (idx (ix2 e (0 : Fin 1))).toInt = (p.val : Int))) (fun _ => (1 : EReal)) (fun _ => Or.inr rfl)
  exact ⟨r, hr, by rw [hs, zero_add]⟩

/-- The larger of a nonnegative real and 1 is a real not below 1. -/
theorem max_one_real (r : ℝ) : ∃ s : ℝ, 1 ≤ s ∧ max ((r : ℝ) : EReal) 1 = (s : EReal) := by
  rcases le_total r 1 with h | h
  · exact ⟨1, le_refl _, by rw [max_eq_right (by exact_mod_cast h)]; exact EReal.coe_one.symm⟩
  · exact ⟨r, h, max_eq_left (by exact_mod_cast h)⟩

/-- The host's quotient of two arrays, read at an index: the quotient of the two entries. -/
theorem hostDivf_at {s : Shape} {φ : FTy} (x y : FVec Ideal s φ) (i : s.Idx) : Host.divf x y i = Ideal.div (x i) (y i) := rfl

/-- For a real divisor not below 1, a product with the reciprocal is the quotient, on every extended real. -/
theorem mean_law (x : EReal) (s : ℝ) (hs : 1 ≤ s) : x * Ideal.div 1 (s : EReal) = Ideal.div x (s : EReal) := by
  have h0 : s ≠ 0 := by linarith
  rw [Ideal.div_coe h0, Ideal.div_coe h0, one_mul]

end Cert.LibCountMean

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.LibDegreeNorm.lean ====
/-
  One relation of a degree-normalised graph convolution, read on the extended reals.

  A node's degree is the number of edges that name it, never taken below 1: the larger of 1 and a count, the
  count being a scatter of ones into zeros. Such a degree is a real number not below 1, and for a real s ≥ 1 the
  inverse square root 1/√s and the power s^(-1/2) are one number. So a vector of degrees has one array of
  inverse square roots, whichever of the two ways it is computed.

  The messages of a relation are the rows of the product X·W, row p scaled by the inverse square root of the
  degree of node p:  msg[p, q] = (∑ k, X[p, k] · W[k, q]) · deg[p]^(-1/2).  The host computes them as a
  dot_general times the degrees' power -1/2 spread along the rows; that array is `msg`.
-/
import Idealize.ShloMosaic.Lib.ValueIdx
import Idealize.ShloMosaic.Lib.Pipeline.Value
import Idealize.ShloMosaic.PureOps.Ideal
import Idealize.ShloMosaic.PureOps.Ideal.Laws
import proofs.«159256_j69793218560321_2_alg».proof.Proof.LibCountMean
import proofs.«159256_j69793218560321_2_alg».proof.Proof.LibGcnLaws
import proofs.«159256_j69793218560321_2_alg».proof.Proof.LibPlainDot
import proofs.«159256_j69793218560321_2_alg».proof.Proof.LibHostKeepdims

noncomputable section

open scoped BigOperators

namespace Cert.DegreeNorm

open Idealize.ShloMosaic Idealize.ShloMosaic.ValueIdx

/-- For a real s ≥ 1 the inverse square root is the power -1/2 (the exponent is the f32 word of -1/2). -/
theorem rsqrt_eq_pow (s : ℝ) (hs : 1 ≤ s) :
    Ideal.rsqrt (s : EReal) = Ideal.pow (s : EReal) (Ideal.ofBits .f32 0xBF000000#32) := by
  have h0 : ¬ s < 0 := by linarith
  have h1 : ¬ s = 0 := by linarith
  rw [GcnLaws.ofBits_neg_half_f32_val, Ideal.pow_coe_coe, Ideal.rsqrt_coe, if_neg h0, if_neg h1]
  congr 1
  rw [Real.rpow_eq_pow, Real.rpow_neg (by linarith), Real.sqrt_eq_rpow]

/-- A scalar spread over any shape reads the scalar everywhere. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply ![] h x j ix0 (fun a => a.elim0)

/-- The larger of 1 and a nonnegative real count is a real not below 1, entry by entry. -/
theorem clip_real {N : ℕ} (h : (⟨0, ![]⟩ : Shape).BroadcastsInDim ⟨1, ![N]⟩ ![]) (cnt : FVec Ideal ⟨1, ![N]⟩ .f32)
    (hc : ∀ p : Fin N, ∃ r : ℝ, 0 ≤ r ∧ cnt (ix1 p) = (r : EReal)) (p : Fin N) :
    ∃ s : ℝ, 1 ≤ s ∧
      maximumf (broadcastInDim ⟨1, ![N]⟩ ![] h (id (constant (F := Ideal) ⟨0, ![]⟩ .f32 0x3F800000#32))) cnt (ix1 p)
        = (s : EReal) := by
  obtain ⟨r, hr, e⟩ := hc p
  obtain ⟨s, hs, es⟩ := LibCountMean.max_one_real r
  refine ⟨s, hs, ?_⟩
  rw [maximumf_apply, bcast_scalar_apply, e]
  show max (Ideal.ofBits .f32 0x3F800000#32) (r : EReal) = s
  rw [GcnLaws.ofBits_one_f32, max_comm]
  exact es

/-- The degrees of the N nodes from the E row numbers of an edge list: the larger of 1 and the number of edges
    naming the node. Every entry is a real not below 1. -/
theorem degree_real {N E : ℕ} (wf : ScatterDims.WF ⟨1, ![N]⟩ ⟨2, ![E, 1]⟩ ⟨1, ![E]⟩ [] [0] [0] 1)
    (hN : (⟨0, ![]⟩ : Shape).BroadcastsInDim ⟨1, ![N]⟩ ![]) (hE : (⟨0, ![]⟩ : Shape).BroadcastsInDim ⟨1, ![E]⟩ ![])
    (idx : IVec ⟨2, ![E, 1]⟩ 32) (p : Fin N) :
    ∃ s : ℝ, 1 ≤ s ∧
      maximumf (broadcastInDim ⟨1, ![N]⟩ ![] hN (id (constant (F := Ideal) ⟨0, ![]⟩ .f32 0x3F800000#32)))
        (Host.scatterAdd (RowScatter.vecDims N E wf)
          (broadcastInDim ⟨1, ![N]⟩ ![] hN (constant (F := Ideal) ⟨0, ![]⟩ .f32 0x00000000#32)) idx
          (broadcastInDim ⟨1, ![E]⟩ ![] hE (constant (F := Ideal) ⟨0, ![]⟩ .f32 0x3F800000#32))) (ix1 p)
        = (s : EReal) :=
  clip_real hN _ (fun p' => LibCountMean.count_real wf _ idx _
    (fun i => (bcast_scalar_apply hN _ i).trans Ideal.ofBits_zero_f32)
    (fun j => (bcast_scalar_apply hE _ j).trans GcnLaws.ofBits_one_f32) p') p

/-- For degrees that are reals not below 1 the host's inverse square root and the host's power -1/2 are one array. -/
theorem hostRsqrt_eq_powf {N : ℕ} (h : (⟨0, ![]⟩ : Shape).BroadcastsInDim ⟨1, ![N]⟩ ![]) (d : FVec Ideal ⟨1, ![N]⟩ .f32)
    (hd : ∀ p : Fin N, ∃ s : ℝ, 1 ≤ s ∧ d (ix1 p) = (s : EReal)) :
    Host.rsqrt d = Host.powf d (broadcastInDim ⟨1, ![N]⟩ ![] h (constant (F := Ideal) ⟨0, ![]⟩ .f32 0xBF000000#32)) := by
  funext i
  obtain ⟨p, rfl⟩ : ∃ p : Fin N, i = ix1 p := ⟨i 0, eq_ix1 i⟩
  obtain ⟨s, hs, e⟩ := hd p
  have eb := bcast_scalar_apply h (constant (F := Ideal) ⟨0, ![]⟩ .f32 0xBF000000#32) (ix1 p)
  show Ideal.rsqrt (d (ix1 p)) = Ideal.pow (d (ix1 p)) _
  rw [eb, e]
  exact rsqrt_eq_pow s hs

/-- The messages of a relation: row p of X·W scaled by the inverse square root of node p's degree. -/
def msg {n : ℕ} (X : FVec Ideal ⟨2, ![n, 128]⟩ .f32) (W : FVec Ideal ⟨2, ![128, 128]⟩ .f32) (d : FVec Ideal ⟨1, ![n]⟩ .f32) :
    FVec Ideal ⟨2, ![n, 128]⟩ .f32 :=
  fun i => (∑ k : Fin 128, X (ix2 (i 0) k) * W (ix2 k (i 1))) * Ideal.rsqrt (d (ix1 (i 0)))

theorem msg_apply {n : ℕ} (X : FVec Ideal ⟨2, ![n, 128]⟩ .f32) (W : FVec Ideal ⟨2, ![128, 128]⟩ .f32) (d : FVec Ideal ⟨1, ![n]⟩ .f32)
    (p : Fin n) (q : Fin 128) :
    msg X W d (ix2 p q) = (∑ k : Fin 128, X (ix2 p k) * W (ix2 k q)) * Ideal.rsqrt (d (ix1 p)) := rfl

/-- The host's messages — the dot_general of X and W times the degrees' power -1/2, turned into a column and
    spread along the rows — are `msg`, when the degrees are reals not below 1. -/
theorem host_msg {n : ℕ} (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, 128]⟩ ![0, 1])
    (X : FVec Ideal ⟨2, ![n, 128]⟩ .f32) (W : FVec Ideal ⟨2, ![128, 128]⟩ .f32) (d : FVec Ideal ⟨1, ![n]⟩ .f32)
    (hd : ∀ p : Fin n, ∃ s : ℝ, 1 ≤ s ∧ d (ix1 p) = (s : EReal)) :
    mulf (Host.dotGeneral (DotDims.plain n 128 128) none X W)
      (broadcastInDim ⟨2, ![n, 128]⟩ ![0, 1] h2 (broadcastInDim ⟨2, ![n, 1]⟩ ![0] h1
        (Host.powf d (broadcastInDim ⟨1, ![n]⟩ ![] h0 (constant (F := Ideal) ⟨0, ![]⟩ .f32 0xBF000000#32)))))
      = msg X W d := by
  rw [← hostRsqrt_eq_powf h0 d hd]
  funext i
  obtain ⟨p, q, rfl⟩ : ∃ (p : Fin n) (q : Fin 128), i = ix2 p q := ⟨i 0, i 1, eq_ix2 i⟩
  rw [mulf_apply, LibHostKeepdims.bcast_a1_ab_apply, LibHostKeepdims.bcast_a_a1_apply, msg_apply]
  exact congrArg (· * Ideal.rsqrt (d (ix1 p))) (PlainDot.dotGeneral_apply n 128 128 none .single X W p q)

end Cert.DegreeNorm

end
-- ==== Proof.Aggregate.lean ====
/-
  What the two programs compute, as functions of the fourteen arguments, on the extended reals.

  Three relations r = 0, 1, 2 over two node sets A (50000 nodes) and B (20000 nodes):
    r = 0 : A → A along 600000 edges,   r = 1 : A → B along 300000 edges,   r = 2 : B → A along 300000 edges.
  For a relation with source features X, weights W, bias b and edge lists (src, dst):
    deg_out[p] = max 1 #{e | src e = p},   deg_in[i] = max 1 #{e | dst e = i},
    msg[p, ·]  = (X·W)[p, ·] · deg_out[p]^(-1/2),
    out[i, ·]  = (∑ over the edges e delivered to i of msg[src e, ·]) · deg_in[i]^(-1/2) + b
  (the gather of the messages at the source rows and the accumulating scatter into the destination rows are the
  host's own, the same operations in both programs, and stay unopened here). Node set A receives relations 0 and 2,
  added; node set B receives relation 1.
-/
import proofs.«159256_j69793218560321_2_alg».proof.Proof.Gen.ReferenceIdeal
import proofs.«159256_j69793218560321_2_alg».proof.Proof.LibDegreeNorm

set_option maxRecDepth 16384

noncomputable section

namespace Cert.Spec

open Cert.ReferenceIdeal Cert.ReferenceIdeal.Facts₀ Idealize.ShloMosaic Idealize.ShloMosaic.ValueIdx Cert.DegreeNorm

/-- Degrees of the 50000 nodes of A from one end of 600000 edges. -/
def degA6 (idx : IVec S600000 32) : FVec Ideal S50000 .f32 :=
  maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 idx) (broadcastInDim S600000 ![] bcast_S_S600000 (constant (F := Ideal) S_ .f32 0x3F800000#32)))

/-- Degrees of the 50000 nodes of A from one end of 300000 edges. -/
def degA3 (idx : IVec S300000 32) : FVec Ideal S50000 .f32 :=
  maximumf (broadcastInDim S50000 ![] bcast_S_S50000 (id (constant (F := Ideal) S_ .f32 0x3F800000#32))) (Host.scatterAdd scatter_S50000_S300000x1_S300000_n_0_0_1 (broadcastInDim S50000 ![] bcast_S_S50000 (constant (F := Ideal) S_ .f32 0x00000000#32)) (broadcastInDim S300000x1 ![0] bcast_S300000_S300000x1_0 idx) (broadcastInDim S300000 ![] bcast_S_S300000 (constant (F := Ideal) S_ .f32 0x3F800000#32)))

/-- Degrees of the 20000 nodes of B from one end of 300000 edges. -/
def degB3 (idx : IVec S300000 32) : FVec Ideal S20000 .f32 :=
  maximumf (broadcastInDim S20000 ![] bcast_S_S20000 (id (constant (F := Ideal) S_ .f32 0x3F800000#32))) (Host.scatterAdd scatter_S20000_S300000x1_S300000_n_0_0_1 (broadcastInDim S20000 ![] bcast_S_S20000 (constant (F := Ideal) S_ .f32 0x00000000#32)) (broadcastInDim S300000x1 ![0] bcast_S300000_S300000x1_0 idx) (broadcastInDim S300000 ![] bcast_S_S300000 (constant (F := Ideal) S_ .f32 0x3F800000#32)))

/-- Every degree is a real not below 1. -/
theorem degA6_real (idx : IVec S600000 32) (p : Fin 50000) : ∃ s : ℝ, 1 ≤ s ∧ degA6 idx (ix1 p) = (s : EReal) := by
  have h := degree_real (N := 50000) (E := 600000) scatter_S50000_S600000x1_S600000_n_0_0_1_wf bcast_S_S50000 bcast_S_S600000
    (broadcastInDim S600000x1 ![0] bcast_S600000_S600000x1_0 idx) p
  have hrec : scatter_S50000_S600000x1_S600000_n_0_0_1 = RowScatter.vecDims 50000 600000 scatter_S50000_S600000x1_S600000_n_0_0_1_wf := rfl
  unfold degA6
  rw [hrec]
  exact h

theorem degA3_real (idx : IVec S300000 32) (p : Fin 50000) : ∃ s : ℝ, 1 ≤ s ∧ degA3 idx (ix1 p) = (s : EReal) := by
  have h := degree_real (N := 50000) (E := 300000) scatter_S50000_S300000x1_S300000_n_0_0_1_wf bcast_S_S50000 bcast_S_S300000
    (broadcastInDim S300000x1 ![0] bcast_S300000_S300000x1_0 idx) p
  have hrec : scatter_S50000_S300000x1_S300000_n_0_0_1 = RowScatter.vecDims 50000 300000 scatter_S50000_S300000x1_S300000_n_0_0_1_wf := rfl
  unfold degA3
  rw [hrec]
  exact h

theorem degB3_real (idx : IVec S300000 32) (p : Fin 20000) : ∃ s : ℝ, 1 ≤ s ∧ degB3 idx (ix1 p) = (s : EReal) := by
  have h := degree_real (N := 20000) (E := 300000) scatter_S20000_S300000x1_S300000_n_0_0_1_wf bcast_S_S20000 bcast_S_S300000
    (broadcastInDim S300000x1 ![0] bcast_S300000_S300000x1_0 idx) p
  have hrec : scatter_S20000_S300000x1_S300000_n_0_0_1 = RowScatter.vecDims 20000 300000 scatter_S20000_S300000x1_S300000_n_0_0_1_wf := rfl
  unfold degB3
  rw [hrec]
  exact h

/-- Node set A's output from the messages M0 (relation 0, rows of A) and M2 (relation 2, rows of B), the inverse
    square roots r0, r2 of the two in-degree vectors, the biases and the edge lists: the messages gathered at the
    source rows, summed into the destination rows, scaled, the bias added; the two relations added. -/
def aggA (M0 : FVec Ideal S50000x128 .f32) (M2 : FVec Ideal S20000x128 .f32) (r0 r2 : FVec Ideal S50000 .f32)
    (a3 a7 : FVec Ideal S128 .f32) (a8 a9 : IVec S600000 32) (a12 a13 : IVec S300000 32) : FVec Ideal S50000x128 .f32 :=
  addf (addf (mulf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 a9) (Host.gather gather_S50000x128_S600000x1_S600000x128_1_0_n_n_0_1_1128 M0 (broadcastInDim S600000x1 ![0] bcast_S600000_S600000x1_0 (select (cmpi .slt a8 (broadcastInDim S600000 ![] bcast_S_S600000 (constantI S_ 32 0#32))) (addi a8 (broadcastInDim S600000 ![] bcast_S_S600000 (constantI S_ 32 50000#32))) a8)))) (broadcastInDim S50000x128 ![0, 1] bcast_S50000x1_S50000x128_0_1 (broadcastInDim S50000x1 ![0] bcast_S50000_S50000x1_0 r0))) (broadcastInDim S50000x128 ![0, 1] bcast_S1x128_S50000x128_0_1 (broadcastInDim S1x128 ![1] bcast_S128_S1x128_1 a3))) (addf (mulf (Host.scatterAdd scatter_S50000x128_S300000x1_S300000x128_1_0_0_1 (broadcastInDim S50000x128 ![] bcast_S_S50000x128 (constant (F := Ideal) S_ .f32 0x00000000#32)) (broadcastInDim S300000x1 ![0] bcast_S300000_S300000x1_0 a13) (Host.gather gather_S20000x128_S300000x1_S300000x128_1_0_n_n_0_1_1128 M2 (broadcastInDim S300000x1 ![0] bcast_S300000_S300000x1_0 (select (cmpi .slt a12 (broadcastInDim S300000 ![] bcast_S_S300000 (constantI S_ 32 0#32))) (addi a12 (broadcastInDim S300000 ![] bcast_S_S300000 (constantI S_ 32 20000#32))) a12)))) (broadcastInDim S50000x128 ![0, 1] bcast_S50000x1_S50000x128_0_1 (broadcastInDim S50000x1 ![0] bcast_S50000_S50000x1_0 r2))) (broadcastInDim S50000x128 ![0, 1] bcast_S1x128_S50000x128_0_1 (broadcastInDim S1x128 ![1] bcast_S128_S1x128_1 a7)))

/-- Node set B's output from the messages M1 (relation 1, rows of A) and the inverse square roots r1 of its in-degrees. -/
def aggB (M1 : FVec Ideal S50000x128 .f32) (r1 : FVec Ideal S20000 .f32) (a5 : FVec Ideal S128 .f32)
    (a10 a11 : IVec S300000 32) : FVec Ideal S20000x128 .f32 :=
  addf (mulf (Host.scatterAdd scatter_S20000x128_S300000x1_S300000x128_1_0_0_1 (broadcastInDim S20000x128 ![] bcast_S_S20000x128 (constant (F := Ideal) S_ .f32 0x00000000#32)) (broadcastInDim S300000x1 ![0] bcast_S300000_S300000x1_0 a11) (Host.gather gather_S50000x128_S300000x1_S300000x128_1_0_n_n_0_1_1128 M1 (broadcastInDim S300000x1 ![0] bcast_S300000_S300000x1_0 (select (cmpi .slt a10 (broadcastInDim S300000 ![] bcast_S_S300000 (constantI S_ 32 0#32))) (addi a10 (broadcastInDim S300000 ![] bcast_S_S300000 (constantI S_ 32 50000#32))) a10)))) (broadcastInDim S20000x128 ![0, 1] bcast_S20000x1_S20000x128_0_1 (broadcastInDim S20000x1 ![0] bcast_S20000_S20000x1_0 r1))) (broadcastInDim S20000x128 ![0, 1] bcast_S1x128_S20000x128_0_1 (broadcastInDim S1x128 ![1] bcast_S128_S1x128_1 a5))

/-- The first result (node set A) as a function of the arguments. -/
def outA (x0 : FVec Ideal S50000x128 .f32) (x1 : FVec Ideal S20000x128 .f32) (w0 w2 : FVec Ideal S128x128 .f32)
    (b0 b2 : FVec Ideal S128 .f32) (s0 d0 : IVec S600000 32) (s2 d2 : IVec S300000 32) : FVec Ideal S50000x128 .f32 :=
  aggA (msg x0 w0 (degA6 s0)) (msg x1 w2 (degB3 s2)) (Host.rsqrt (degA6 d0)) (Host.rsqrt (degA3 d2)) b0 b2 s0 d0 s2 d2

/-- The second result (node set B) as a function of the arguments. -/
def outB (x0 : FVec Ideal S50000x128 .f32) (w1 : FVec Ideal S128x128 .f32) (b1 : FVec Ideal S128 .f32)
    (s1 d1 : IVec S300000 32) : FVec Ideal S20000x128 .f32 :=
  aggB (msg x0 w1 (degA3 s1)) (Host.rsqrt (degB3 d1)) b1 s1 d1

/-- The reference's own spelling of the two results — a dot_general times the degrees' power -1/2 for the messages,
    the power -1/2 for the in-degrees — is `outA`, `outB`: every degree is a real not below 1. -/
theorem ref_outA (x0 : FVec Ideal S50000x128 .f32) (x1 : FVec Ideal S20000x128 .f32) (w0 w2 : FVec Ideal S128x128 .f32)
    (b0 b2 : FVec Ideal S128 .f32) (s0 d0 : IVec S600000 32) (s2 d2 : IVec S300000 32) :
    aggA (mulf (Host.dotGeneral dot_S50000x128_S128x128_S50000x128_1_0_0_1_n_n none x0 w0) (broadcastInDim S50000x128 ![0, 1] bcast_S50000x1_S50000x128_0_1 (broadcastInDim S50000x1 ![0] bcast_S50000_S50000x1_0 (Host.powf (maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 s0) (broadcastInDim S600000 ![] bcast_S_S600000 (constant (F := Ideal) S_ .f32 0x3F800000#32)))) (broadcastInDim S50000 ![] bcast_S_S50000 (constant (F := Ideal) S_ .f32 0xBF000000#32))))))
      (mulf (Host.dotGeneral dot_S20000x128_S128x128_S20000x128_1_0_0_1_n_n none x1 w2) (broadcastInDim S20000x128 ![0, 1] bcast_S20000x1_S20000x128_0_1 (broadcastInDim S20000x1 ![0] bcast_S20000_S20000x1_0 (Host.powf (maximumf (broadcastInDim S20000 ![] bcast_S_S20000 (id (constant (F := Ideal) S_ .f32 0x3F800000#32))) (Host.scatterAdd scatter_S20000_S300000x1_S300000_n_0_0_1 (broadcastInDim S20000 ![] bcast_S_S20000 (constant (F := Ideal) S_ .f32 0x00000000#32)) (broadcastInDim S300000x1 ![0] bcast_S300000_S300000x1_0 s2) (broadcastInDim S300000 ![] bcast_S_S300000 (constant (F := Ideal) S_ .f32 0x3F800000#32)))) (broadcastInDim S20000 ![] bcast_S_S20000 (constant (F := Ideal) S_ .f32 0xBF000000#32))))))
      (Host.powf (maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 d0) (broadcastInDim S600000 ![] bcast_S_S600000 (constant (F := Ideal) S_ .f32 0x3F800000#32)))) (broadcastInDim S50000 ![] bcast_S_S50000 (constant (F := Ideal) S_ .f32 0xBF000000#32)))
      (Host.powf (maximumf (broadcastInDim S50000 ![] bcast_S_S50000 (id (constant (F := Ideal) S_ .f32 0x3F800000#32))) (Host.scatterAdd scatter_S50000_S300000x1_S300000_n_0_0_1 (broadcastInDim S50000 ![] bcast_S_S50000 (constant (F := Ideal) S_ .f32 0x00000000#32)) (broadcastInDim S300000x1 ![0] bcast_S300000_S300000x1_0 d2) (broadcastInDim S300000 ![] bcast_S_S300000 (constant (F := Ideal) S_ .f32 0x3F800000#32)))) (broadcastInDim S50000 ![] bcast_S_S50000 (constant (F := Ideal) S_ .f32 0xBF000000#32))) b0 b2 s0 d0 s2 d2
      = outA x0 x1 w0 w2 b0 b2 s0 d0 s2 d2 := by
  have e0 : mulf (Host.dotGeneral dot_S50000x128_S128x128_S50000x128_1_0_0_1_n_n none x0 w0) (broadcastInDim S50000x128 ![0, 1] bcast_S50000x1_S50000x128_0_1 (broadcastInDim S50000x1 ![0] bcast_S50000_S50000x1_0 (Host.powf (maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 s0) (broadcastInDim S600000 ![] bcast_S_S600000 (constant (F := Ideal) S_ .f32 0x3F800000#32)))) (broadcastInDim S50000 ![] bcast_S_S50000 (constant (F := Ideal) S_ .f32 0xBF000000#32))))) = msg x0 w0 (degA6 s0) :=
    host_msg (n := 50000) bcast_S_S50000 bcast_S50000_S50000x1_0 bcast_S50000x1_S50000x128_0_1 x0 w0 (degA6 s0) (degA6_real s0)
  have e2 : mulf (Host.dotGeneral dot_S20000x128_S128x128_S20000x128_1_0_0_1_n_n none x1 w2) (broadcastInDim S20000x128 ![0, 1] bcast_S20000x1_S20000x128_0_1 (broadcastInDim S20000x1 ![0] bcast_S20000_S20000x1_0 (Host.powf (maximumf (broadcastInDim S20000 ![] bcast_S_S20000 (id (constant (F := Ideal) S_ .f32 0x3F800000#32))) (Host.scatterAdd scatter_S20000_S300000x1_S300000_n_0_0_1 (broadcastInDim S20000 ![] bcast_S_S20000 (constant (F := Ideal) S_ .f32 0x00000000#32)) (broadcastInDim S300000x1 ![0] bcast_S300000_S300000x1_0 s2) (broadcastInDim S300000 ![] bcast_S_S300000 (constant (F := Ideal) S_ .f32 0x3F800000#32)))) (broadcastInDim S20000 ![] bcast_S_S20000 (constant (F := Ideal) S_ .f32 0xBF000000#32))))) = msg x1 w2 (degB3 s2) :=
    host_msg (n := 20000) bcast_S_S20000 bcast_S20000_S20000x1_0 bcast_S20000x1_S20000x128_0_1 x1 w2 (degB3 s2) (degB3_real s2)
  have p0 : Host.powf (maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 d0) (broadcastInDim S600000 ![] bcast_S_S600000 (constant (F := Ideal) S_ .f32 0x3F800000#32)))) (broadcastInDim S50000 ![] bcast_S_S50000 (constant (F := Ideal) S_ .f32 0xBF000000#32)) = Host.rsqrt (degA6 d0) :=
    (hostRsqrt_eq_powf bcast_S_S50000 (degA6 d0) (degA6_real d0)).symm
  have p2 : Host.powf (maximumf (broadcastInDim S50000 ![] bcast_S_S50000 (id (constant (F := Ideal) S_ .f32 0x3F800000#32))) (Host.scatterAdd scatter_S50000_S300000x1_S300000_n_0_0_1 (broadcastInDim S50000 ![] bcast_S_S50000 (constant (F := Ideal) S_ .f32 0x00000000#32)) (broadcastInDim S300000x1 ![0] bcast_S300000_S300000x1_0 d2) (broadcastInDim S300000 ![] bcast_S_S300000 (constant (F := Ideal) S_ .f32 0x3F800000#32)))) (broadcastInDim S50000 ![] bcast_S_S50000 (constant (F := Ideal) S_ .f32 0xBF000000#32)) = Host.rsqrt (degA3 d2) :=
    (hostRsqrt_eq_powf bcast_S_S50000 (degA3 d2) (degA3_real d2)).symm
  rw [e0, e2, p0, p2]
  rfl

theorem ref_outB (x0 : FVec Ideal S50000x128 .f32) (w1 : FVec Ideal S128x128 .f32) (b1 : FVec Ideal S128 .f32)
    (s1 d1 : IVec S300000 32) :
    aggB (mulf (Host.dotGeneral dot_S50000x128_S128x128_S50000x128_1_0_0_1_n_n none x0 w1) (broadcastInDim S50000x128 ![0, 1] bcast_S50000x1_S50000x128_0_1 (broadcastInDim S50000x1 ![0] bcast_S50000_S50000x1_0 (Host.powf (maximumf (broadcastInDim S50000 ![] bcast_S_S50000 (id (constant (F := Ideal) S_ .f32 0x3F800000#32))) (Host.scatterAdd scatter_S50000_S300000x1_S300000_n_0_0_1 (broadcastInDim S50000 ![] bcast_S_S50000 (constant (F := Ideal) S_ .f32 0x00000000#32)) (broadcastInDim S300000x1 ![0] bcast_S300000_S300000x1_0 s1) (broadcastInDim S300000 ![] bcast_S_S300000 (constant (F := Ideal) S_ .f32 0x3F800000#32)))) (broadcastInDim S50000 ![] bcast_S_S50000 (constant (F := Ideal) S_ .f32 0xBF000000#32))))))
      (Host.powf (maximumf (broadcastInDim S20000 ![] bcast_S_S20000 (id (constant (F := Ideal) S_ .f32 0x3F800000#32))) (Host.scatterAdd scatter_S20000_S300000x1_S300000_n_0_0_1 (broadcastInDim S20000 ![] bcast_S_S20000 (constant (F := Ideal) S_ .f32 0x00000000#32)) (broadcastInDim S300000x1 ![0] bcast_S300000_S300000x1_0 d1) (broadcastInDim S300000 ![] bcast_S_S300000 (constant (F := Ideal) S_ .f32 0x3F800000#32)))) (broadcastInDim S20000 ![] bcast_S_S20000 (constant (F := Ideal) S_ .f32 0xBF000000#32))) b1 s1 d1
      = outB x0 w1 b1 s1 d1 := by
  have e1 : mulf (Host.dotGeneral dot_S50000x128_S128x128_S50000x128_1_0_0_1_n_n none x0 w1) (broadcastInDim S50000x128 ![0, 1] bcast_S50000x1_S50000x128_0_1 (broadcastInDim S50000x1 ![0] bcast_S50000_S50000x1_0 (Host.powf (maximumf (broadcastInDim S50000 ![] bcast_S_S50000 (id (constant (F := Ideal) S_ .f32 0x3F800000#32))) (Host.scatterAdd scatter_S50000_S300000x1_S300000_n_0_0_1 (broadcastInDim S50000 ![] bcast_S_S50000 (constant (F := Ideal) S_ .f32 0x00000000#32)) (broadcastInDim S300000x1 ![0] bcast_S300000_S300000x1_0 s1) (broadcastInDim S300000 ![] bcast_S_S300000 (constant (F := Ideal) S_ .f32 0x3F800000#32)))) (broadcastInDim S50000 ![] bcast_S_S50000 (constant (F := Ideal) S_ .f32 0xBF000000#32))))) = msg x0 w1 (degA3 s1) :=
    host_msg (n := 50000) bcast_S_S50000 bcast_S50000_S50000x1_0 bcast_S50000x1_S50000x128_0_1 x0 w1 (degA3 s1) (degA3_real s1)
  have p1 : Host.powf (maximumf (broadcastInDim S20000 ![] bcast_S_S20000 (id (constant (F := Ideal) S_ .f32 0x3F800000#32))) (Host.scatterAdd scatter_S20000_S300000x1_S300000_n_0_0_1 (broadcastInDim S20000 ![] bcast_S_S20000 (constant (F := Ideal) S_ .f32 0x00000000#32)) (broadcastInDim S300000x1 ![0] bcast_S300000_S300000x1_0 d1) (broadcastInDim S300000 ![] bcast_S_S300000 (constant (F := Ideal) S_ .f32 0x3F800000#32)))) (broadcastInDim S20000 ![] bcast_S_S20000 (constant (F := Ideal) S_ .f32 0xBF000000#32)) = Host.rsqrt (degB3 d1) :=
    (hostRsqrt_eq_powf bcast_S_S20000 (degB3 d1) (degB3_real d1)).symm
  rw [e1, p1]
  rfl

end Cert.Spec

end
-- ==== Proof.HostPre.lean ====
/-
  The host operations of the idealized kernel's @main that come before its first region: six degree vectors.

  From any contents of the buffers, the operations before the first region leave each argument as it was, and
  compute, for each of the six edge-list ends, the degree vector  max 1 (count)  — the count a scatter of ones into
  zeros along the column of row numbers —, the two out-degree vectors of node set A also as [50000, 1] columns.
  Each clip is an outlined function whose values pass through typed references: the transport along a buffer's
  type is the identity, which the lemmas `clipK` state once per call for an arbitrary count vector.
-/
import proofs.«159256_j69793218560321_2_alg».proof.Proof.Gen.KernelIdeal.Frame
import proofs.«159256_j69793218560321_2_alg».proof.Proof.Aggregate
import Idealize.ShloMosaic.Lib.StableHlo.Run

set_option maxRecDepth 16384

noncomputable section

namespace Cert.KernelIdeal.HostSide

open Cert.KernelIdeal Cert.KernelIdeal.Gen Idealize.ShloMosaic Idealize.ShloMosaic.ValueIdx Idealize.ShloMosaic.TcCoe Idealize.SL.Sem Idealize.ShloMosaic.StableHlo

/-- Degrees of the 50000 nodes of A from one end of 600000 edges (the specification's, in this program's vocabulary). -/
def degA6 (idx : IVec S600000 32) : FVec Ideal S50000 .f32 :=
  maximumf (broadcastInDim S50000 ![] bcast_S_S50000 (id (constant (F := Ideal) S_ .f32 0x3F800000#32))) (Host.scatterAdd scatter_S50000_S600000x1_S600000_n_0_0_1 (broadcastInDim S50000 ![] bcast_S_S50000 (constant (F := Ideal) S_ .f32 0x00000000#32)) (broadcastInDim S600000x1 ![0] bcast_S600000_S600000x1_0 idx) (broadcastInDim S600000 ![] bcast_S_S600000 (constant (F := Ideal) S_ .f32 0x3F800000#32)))
theorem degA6_spec (idx : IVec S600000 32) : degA6 idx = Spec.degA6 idx := rfl

/-- Degrees of the 50000 nodes of A from one end of 300000 edges. -/
def degA3 (idx : IVec S300000 32) : FVec Ideal S50000 .f32 :=
  maximumf (broadcastInDim S50000 ![] bcast_S_S50000 (id (constant (F := Ideal) S_ .f32 0x3F800000#32))) (Host.scatterAdd scatter_S50000_S300000x1_S300000_n_0_0_1 (broadcastInDim S50000 ![] bcast_S_S50000 (constant (F := Ideal) S_ .f32 0x00000000#32)) (broadcastInDim S300000x1 ![0] bcast_S300000_S300000x1_0 idx) (broadcastInDim S300000 ![] bcast_S_S300000 (constant (F := Ideal) S_ .f32 0x3F800000#32)))
theorem degA3_spec (idx : IVec S300000 32) : degA3 idx = Spec.degA3 idx := rfl

/-- Degrees of the 20000 nodes of B from one end of 300000 edges. -/
def degB3 (idx : IVec S300000 32) : FVec Ideal S20000 .f32 :=
  maximumf (broadcastInDim S20000 ![] bcast_S_S20000 (id (constant (F := Ideal) S_ .f32 0x3F800000#32))) (Host.scatterAdd scatter_S20000_S300000x1_S300000_n_0_0_1 (broadcastInDim S20000 ![] bcast_S_S20000 (constant (F := Ideal) S_ .f32 0x00000000#32)) (broadcastInDim S300000x1 ![0] bcast_S300000_S300000x1_0 idx) (broadcastInDim S300000 ![] bcast_S_S300000 (constant (F := Ideal) S_ .f32 0x3F800000#32)))
theorem degB3_spec (idx : IVec S300000 32) : degB3 idx = Spec.degB3 idx := rfl

/-- The contents after the host operations that precede the first region, from any contents. -/
def pre (U : Valuation τ sig (Elt Ideal)) : Valuation τ sig (Elt Ideal) :=
  after hostOps0_12 (after hostOps0_11 (after hostOps0_10 (after hostOps0_9 (after hostOps0_8 (after hostOps0_7 (after hostOps0_6
    (after hostOps0_5 (after hostOps0_4 (after hostOps0_3 (after hostOps0_2 (after hostOps0_1 (after hostOps0 U))))))))))))

theorem clip0 (X : FVec Ideal S50000 .f32) :
    (TRef.of (T := ⟨S50000, .f32⟩) main_v4).toBuf (Val := Elt Ideal) (maximumf (F := Ideal) (s := S50000) (φ := .f32)
      ((TRef.of (T := ⟨S50000, .f32⟩) main_call0_v1).ofBuf (Val := Elt Ideal) ((TRef.of (T := ⟨S50000, .f32⟩) main_call0_v1).toBuf (Val := Elt Ideal) (broadcastInDim S50000 ![] bcast_S_S50000
        ((TRef.of (T := ⟨S_, .f32⟩) main_call0_v0).ofBuf (Val := Elt Ideal) ((TRef.of (T := ⟨S_, .f32⟩) main_call0_v0).toBuf (Val := Elt Ideal) (id ((TRef.of (T := ⟨S_, .f32⟩) main_cst_1).ofBuf (Val := Elt Ideal) (constant (F := Ideal) S_ .f32 0x3F800000#32))))))))
      ((TRef.of (T := ⟨S50000, .f32⟩) main_v3).ofBuf (Val := Elt Ideal) X))
    = maximumf (broadcastInDim S50000 ![] bcast_S_S50000 (id (constant (F := Ideal) S_ .f32 0x3F800000#32))) X := rfl

theorem clip1 (X : FVec Ideal S50000 .f32) :
    (TRef.of (T := ⟨S50000, .f32⟩) main_v8).toBuf (Val := Elt Ideal) (maximumf (F := Ideal) (s := S50000) (φ := .f32)
      ((TRef.of (T := ⟨S50000, .f32⟩) main_call1_v1).ofBuf (Val := Elt Ideal) ((TRef.of (T := ⟨S50000, .f32⟩) main_call1_v1).toBuf (Val := Elt Ideal) (broadcastInDim S50000 ![] bcast_S_S50000
        ((TRef.of (T := ⟨S_, .f32⟩) main_call1_v0).ofBuf (Val := Elt Ideal) ((TRef.of (T := ⟨S_, .f32⟩) main_call1_v0).toBuf (Val := Elt Ideal) (id ((TRef.of (T := ⟨S_, .f32⟩) main_cst_3).ofBuf (Val := Elt Ideal) (constant (F := Ideal) S_ .f32 0x3F800000#32))))))))
      ((TRef.of (T := ⟨S50000, .f32⟩) main_v7).ofBuf (Val := Elt Ideal) X))
    = maximumf (broadcastInDim S50000 ![] bcast_S_S50000 (id (constant (F := Ideal) S_ .f32 0x3F800000#32))) X := rfl

theorem clip2 (X : FVec Ideal S50000 .f32) :
    (TRef.of (T := ⟨S50000, .f32⟩) main_v13).toBuf (Val := Elt Ideal) (maximumf (F := Ideal) (s := S50000) (φ := .f32)
      ((TRef.of (T := ⟨S50000, .f32⟩) main_call2_v1).ofBuf (Val := Elt Ideal) ((TRef.of (T := ⟨S50000, .f32⟩) main_call2_v1).toBuf (Val := Elt Ideal) (broadcastInDim S50000 ![] bcast_S_S50000
        ((TRef.of (T := ⟨S_, .f32⟩) main_call2_v0).ofBuf (Val := Elt Ideal) ((TRef.of (T := ⟨S_, .f32⟩) main_call2_v0).toBuf (Val := Elt Ideal) (id ((TRef.of (T := ⟨S_, .f32⟩) main_cst_6).ofBuf (Val := Elt Ideal) (constant (F := Ideal) S_ .f32 0x3F800000#32))))))))
      ((TRef.of (T := ⟨S50000, .f32⟩) main_v12).ofBuf (Val := Elt Ideal) X))
    = maximumf (broadcastInDim S50000 ![] bcast_S_S50000 (id (constant (F := Ideal) S_ .f32 0x3F800000#32))) X := rfl

theorem clip3 (X : FVec Ideal S20000 .f32) :
    (TRef.of (T := ⟨S20000, .f32⟩) main_v17).toBuf (Val := Elt Ideal) (maximumf (F := Ideal) (s := S20000) (φ := .f32)
      ((TRef.of (T := ⟨S20000, .f32⟩) main_call3_v1).ofBuf (Val := Elt Ideal) ((TRef.of (T := ⟨S20000, .f32⟩) main_call3_v1).toBuf (Val := Elt Ideal) (broadcastInDim S20000 ![] bcast_S_S20000
        ((TRef.of (T := ⟨S_, .f32⟩) main_call3_v0).ofBuf (Val := Elt Ideal) ((TRef.of (T := ⟨S_, .f32⟩) main_call3_v0).toBuf (Val := Elt Ideal) (id ((TRef.of (T := ⟨S_, .f32⟩) main_cst_8).ofBuf (Val := Elt Ideal) (constant (F := Ideal) S_ .f32 0x3F800000#32))))))))
      ((TRef.of (T := ⟨S20000, .f32⟩) main_v16).ofBuf (Val := Elt Ideal) X))
    = maximumf (broadcastInDim S20000 ![] bcast_S_S20000 (id (constant (F := Ideal) S_ .f32 0x3F800000#32))) X := rfl

theorem clip4 (X : FVec Ideal S20000 .f32) :
    (TRef.of (T := ⟨S20000, .f32⟩) main_v22).toBuf (Val := Elt Ideal) (maximumf (F := Ideal) (s := S20000) (φ := .f32)
      ((TRef.of (T := ⟨S20000, .f32⟩) main_call4_v1).ofBuf (Val := Elt Ideal) ((TRef.of (T := ⟨S20000, .f32⟩) main_call4_v1).toBuf (Val := Elt Ideal) (broadcastInDim S20000 ![] bcast_S_S20000
        ((TRef.of (T := ⟨S_, .f32⟩) main_call4_v0).ofBuf (Val := Elt Ideal) ((TRef.of (T := ⟨S_, .f32⟩) main_call4_v0).toBuf (Val := Elt Ideal) (id ((TRef.of (T := ⟨S_, .f32⟩) main_cst_11).ofBuf (Val := Elt Ideal) (constant (F := Ideal) S_ .f32 0x3F800000#32))))))))
      ((TRef.of (T := ⟨S20000, .f32⟩) main_v21).ofBuf (Val := Elt Ideal) X))
    = maximumf (broadcastInDim S20000 ![] bcast_S_S20000 (id (constant (F := Ideal) S_ .f32 0x3F800000#32))) X := rfl

theorem clip5 (X : FVec Ideal S50000 .f32) :
    (TRef.of (T := ⟨S50000, .f32⟩) main_v26).toBuf (Val := Elt Ideal) (maximumf (F := Ideal) (s := S50000) (φ := .f32)
      ((TRef.of (T := ⟨S50000, .f32⟩) main_call5_v1).ofBuf (Val := Elt Ideal) ((TRef.of (T := ⟨S50000, .f32⟩) main_call5_v1).toBuf (Val := Elt Ideal) (broadcastInDim S50000 ![] bcast_S_S50000
        ((TRef.of (T := ⟨S_, .f32⟩) main_call5_v0).ofBuf (Val := Elt Ideal) ((TRef.of (T := ⟨S_, .f32⟩) main_call5_v0).toBuf (Val := Elt Ideal) (id ((TRef.of (T := ⟨S_, .f32⟩) main_cst_13).ofBuf (Val := Elt Ideal) (constant (F := Ideal) S_ .f32 0x3F800000#32))))))))
      ((TRef.of (T := ⟨S50000, .f32⟩) main_v25).ofBuf (Val := Elt Ideal) X))
    = maximumf (broadcastInDim S50000 ![] bcast_S_S50000 (id (constant (F := Ideal) S_ .f32 0x3F800000#32))) X := rfl

variable (U : Valuation τ sig (Elt Ideal))

/-- In-degrees of relation 0. -/
theorem pre_v8 : pre U (Proc.devRef .tc main_v8) = degA6 (U (Proc.devRef .tc main_arg9)) := by
  simp only [pre, hostOps0, hostOps0_1, hostOps0_2, hostOps0_3, hostOps0_4, hostOps0_5, hostOps0_6, hostOps0_7, hostOps0_8, hostOps0_9, hostOps0_10, hostOps0_11, hostOps0_12]
  after_results_simp
  exact clip1 _

/-- In-degrees of relation 1. -/
theorem pre_v17 : pre U (Proc.devRef .tc main_v17) = degB3 (U (Proc.devRef .tc main_arg11)) := by
  simp only [pre, hostOps0, hostOps0_1, hostOps0_2, hostOps0_3, hostOps0_4, hostOps0_5, hostOps0_6, hostOps0_7, hostOps0_8, hostOps0_9, hostOps0_10, hostOps0_11, hostOps0_12]
  after_results_simp
  exact clip3 _

/-- Out-degrees of relation 2. -/
theorem pre_v22 : pre U (Proc.devRef .tc main_v22) = degB3 (U (Proc.devRef .tc main_arg12)) := by
  simp only [pre, hostOps0, hostOps0_1, hostOps0_2, hostOps0_3, hostOps0_4, hostOps0_5, hostOps0_6, hostOps0_7, hostOps0_8, hostOps0_9, hostOps0_10, hostOps0_11, hostOps0_12]
  after_results_simp
  exact clip4 _

/-- In-degrees of relation 2. -/
theorem pre_v26 : pre U (Proc.devRef .tc main_v26) = degA3 (U (Proc.devRef .tc main_arg13)) := by
  simp only [pre, hostOps0, hostOps0_1, hostOps0_2, hostOps0_3, hostOps0_4, hostOps0_5, hostOps0_6, hostOps0_7, hostOps0_8, hostOps0_9, hostOps0_10, hostOps0_11, hostOps0_12]
  after_results_simp
  exact clip5 _

/-- Out-degrees of relation 0, as a column. -/
theorem pre_v27 : pre U (Proc.devRef .tc main_v27) = shapeCast S50000x1 (degA6 (U (Proc.devRef .tc main_arg8))) shapeCasts_S50000_S50000x1 := by
  simp only [pre, hostOps0, hostOps0_1, hostOps0_2, hostOps0_3, hostOps0_4, hostOps0_5, hostOps0_6, hostOps0_7, hostOps0_8, hostOps0_9, hostOps0_10, hostOps0_11, hostOps0_12]
  after_results_simp
  exact congrArg (fun v : FVec Ideal S50000 .f32 => shapeCast S50000x1 v shapeCasts_S50000_S50000x1) (clip0 _)

/-- Out-degrees of relation 1, as a column. -/
theorem pre_v28 : pre U (Proc.devRef .tc main_v28) = shapeCast S50000x1 (degA3 (U (Proc.devRef .tc main_arg10))) shapeCasts_S50000_S50000x1 := by
  simp only [pre, hostOps0, hostOps0_1, hostOps0_2, hostOps0_3, hostOps0_4, hostOps0_5, hostOps0_6, hostOps0_7, hostOps0_8, hostOps0_9, hostOps0_10, hostOps0_11, hostOps0_12]
  after_results_simp
  exact congrArg (fun v : FVec Ideal S50000 .f32 => shapeCast S50000x1 v shapeCasts_S50000_S50000x1) (clip2 _)

/-! No operation before the first region writes an argument. -/
theorem pre_arg0 : pre U (Proc.devRef .tc main_arg0) = U (Proc.devRef .tc main_arg0) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg1 : pre U (Proc.devRef .tc main_arg1) = U (Proc.devRef .tc main_arg1) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg2 : pre U (Proc.devRef .tc main_arg2) = U (Proc.devRef .tc main_arg2) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg3 : pre U (Proc.devRef .tc main_arg3) = U (Proc.devRef .tc main_arg3) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg4 : pre U (Proc.devRef .tc main_arg4) = U (Proc.devRef .tc main_arg4) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg5 : pre U (Proc.devRef .tc main_arg5) = U (Proc.devRef .tc main_arg5) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg6 : pre U (Proc.devRef .tc main_arg6) = U (Proc.devRef .tc main_arg6) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg7 : pre U (Proc.devRef .tc main_arg7) = U (Proc.devRef .tc main_arg7) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg8 : pre U (Proc.devRef .tc main_arg8) = U (Proc.devRef .tc main_arg8) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg9 : pre U (Proc.devRef .tc main_arg9) = U (Proc.devRef .tc main_arg9) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg10 : pre U (Proc.devRef .tc main_arg10) = U (Proc.devRef .tc main_arg10) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg11 : pre U (Proc.devRef .tc main_arg11) = U (Proc.devRef .tc main_arg11) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg12 : pre U (Proc.devRef .tc main_arg12) = U (Proc.devRef .tc main_arg12) := by
  simp only [pre, hostOps0, hostOps0_1, hostOps0_2, hostOps0_3, hostOps0_4, hostOps0_5, hostOps0_6, hostOps0_7, hostOps0_8, hostOps0_9, hostOps0_10, hostOps0_11, hostOps0_12]
  after_results_simp
theorem pre_arg13 : pre U (Proc.devRef .tc main_arg13) = U (Proc.devRef .tc main_arg13) := by
  simp only [pre, hostOps0, hostOps0_1, hostOps0_2, hostOps0_3, hostOps0_4, hostOps0_5, hostOps0_6, hostOps0_7, hostOps0_8, hostOps0_9, hostOps0_10, hostOps0_11, hostOps0_12]
  after_results_simp

end Cert.KernelIdeal.HostSide

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.BlockValue.lean ====
/-
  The arrays the two kernel regions leave, on the extended reals.

  Each grid point of a region holds one block of 2000 rows of X, the whole 128×128 matrix W and the same 2000 rows of
  a degree column D; its body stores, for every row p of the block and every column q,
      (∑ k, X[p, k] · W[k, q]) · D[p, 0]^(-1/2)
  (a change of float format is the identity, a matmul into a zero accumulator is the sum of products). The blocks
  of the output are the consecutive groups of 2000 rows, so they tile the output array, and after the region the
  array holds that expression at every index of the arrays the region was entered with: the relation's messages
  with the degrees held as a column. The first region does this twice (two weight matrices, two degree columns,
  one X), the second once.
-/
import proofs.«159256_j69793218560321_2_alg».proof.Proof.Gen.KernelIdeal.Frame
import proofs.«159256_j69793218560321_2_alg».proof.Proof.LibKeepdims
import proofs.«159256_j69793218560321_2_alg».proof.Proof.LibPlainDot
import Idealize.ShloMosaic.Lib.Pipeline.Value
import Idealize.ShloMosaic.Lib.ValueIdx

set_option maxRecDepth 16384

noncomputable section

open scoped BigOperators

namespace Cert.KernelIdeal.MsgBlocks

open Cert.KernelIdeal Cert.KernelIdeal.Gen Idealize.ShloMosaic Idealize.ShloMosaic.ValueIdx Idealize.ShloMosaic.TcCoe Idealize.SL.Sem
open Idealize.ShloMosaic.Pipeline (Dat)

/-- The messages of a relation with the degrees held as an [n, 1] column: row p of X·W times D[p, 0]^(-1/2). -/
def colMsg {n : ℕ} (X : FVec Ideal ⟨2, ![n, 128]⟩ .f32) (W : FVec Ideal ⟨2, ![128, 128]⟩ .f32) (D : FVec Ideal ⟨2, ![n, 1]⟩ .f32) :
    FVec Ideal ⟨2, ![n, 128]⟩ .bf16 :=
  fun i => (∑ k : Fin 128, X (ix2 (i 0) k) * W (ix2 k (i 1))) * Ideal.rsqrt (D (ix2 (i 0) (0 : Fin 1)))

/-- The stored value of a block at (p, q): the row of products summed, times the inverse square root of the row's degree. -/
theorem k0_pay2_apply (x : Vec Ideal S2000x128 .f32) (w : Vec Ideal S128x128 .f32) (d : Vec Ideal S2000x1 .f32) (p : Fin 2000) (q : Fin 128) :
    k0_pay2 x w d (ix2 p q) = (∑ k : Fin 128, x (ix2 p k) * w (ix2 k q)) * Ideal.rsqrt (d (ix2 p (0 : Fin 1))) := by
  unfold k0_pay2 k0_pay1
  have e1 := PlainDot.matmul_zero_apply 2000 128 128 none (truncf .bf16 x bitsLt_bf16_f32 : FVec Ideal S2000x128 .bf16)
    (truncf .bf16 w bitsLt_bf16_f32 : FVec Ideal S128x128 .bf16) p q
  have e2 := LibKeepdims.broadcastTo_a1_ab_apply (rsqrt (shapeCast S2000x1 d shapeCasts_S2000x1_S2000x1) : FVec Ideal S2000x1 .f32)
    broadcasts_S2000x1_S2000x128 p q
  have e3 : (rsqrt (shapeCast S2000x1 d shapeCasts_S2000x1_S2000x1) : FVec Ideal S2000x1 .f32) (ix2 p (0 : Fin 1))
      = Ideal.rsqrt (d (ix2 p (0 : Fin 1))) :=
    congrArg Ideal.rsqrt (congrFun (shapeCast_self d shapeCasts_S2000x1_S2000x1) _)
  exact congrArg₂ (· * ·) e1 (e2.trans e3)

theorem k0_pay2_at (x : Vec Ideal S2000x128 .f32) (w : Vec Ideal S128x128 .f32) (d : Vec Ideal S2000x1 .f32) (j : S2000x128.Idx) :
    k0_pay2 x w d j = (∑ k : Fin 128, x (ix2 (j 0) k) * w (ix2 k (j 1))) * Ideal.rsqrt (d (ix2 (j 0) (0 : Fin 1))) :=
  (congrArg (k0_pay2 x w d) (eq_ix2 j)).trans (k0_pay2_apply x w d (j 0) (j 1))

/-- The three stores of the two regions compute one expression of their three loaded blocks. -/
theorem k0_pay3_at (x : Vec Ideal S2000x128 .f32) (w : Vec Ideal S128x128 .f32) (d : Vec Ideal S2000x1 .f32) (j : S2000x128.Idx) :
    k0_pay3 x w d j = (∑ k : Fin 128, x (ix2 (j 0) k) * w (ix2 k (j 1))) * Ideal.rsqrt (d (ix2 (j 0) (0 : Fin 1))) :=
  k0_pay2_at x w d j

theorem k1_pay1_at (x : Vec Ideal S2000x128 .f32) (w : Vec Ideal S128x128 .f32) (d : Vec Ideal S2000x1 .f32) (j : S2000x128.Idx) :
    k1_pay1 x w d j = (∑ k : Fin 128, x (ix2 (j 0) k) * w (ix2 k (j 1))) * Ideal.rsqrt (d (ix2 (j 0) (0 : Fin 1))) :=
  k0_pay2_at x w d j

theorem hz : (![0, 0] : Fin 2 → Nat) = fun _ => 0 := funext fun a => by fin_cases a <;> rfl

variable (V : (c : Dev nD) → (b : Ref sig .tc) → Buf (Elt Ideal) ((c : Thread nD τ).loc b))

/-- The block indices of region 0's windows, decided over its grid: the rows of X, of the degree column and of the
    output move together, one block of 2000 rows per point; W is whole at every point. -/
theorem idxA0 : ∀ t : Fin cfg0.N, win0_0.index t (0 : Fin 2) = win0_5.index t (0 : Fin 2) ∧ win0_0.index t (1 : Fin 2) = 0
    ∧ win0_1.index t (0 : Fin 2) = 0 ∧ win0_1.index t (1 : Fin 2) = 0
    ∧ win0_3.index t (0 : Fin 2) = win0_5.index t (0 : Fin 2) ∧ win0_3.index t (1 : Fin 2) = 0
    ∧ win0_5.index t (1 : Fin 2) = 0 ∧ win0_5.index t (0 : Fin 2) = t.val :=
  (by decide +kernel : ∀ t : Fin grid0.N, _)

/-- What point t writes back to output window 5 of region 0 is block t of the messages of the arrays the region finds. -/
theorem flushedA0 (c : Dev nD) (t : Fin cfg0.N) :
    (dat0 V c).flushed 5 t
      = ((cfg0.win 5).blk t).view.read (Elt Ideal) (colMsg (V c main_arg0) (V c main_arg2) (V c main_v27)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S2000x1) hz]
  funext j
  show k0_pay2 (iblk0 V c 0 t) (iblk0 V c 1 t) (iblk0 V c 3 t) j
    = colMsg (V c main_arg0) (V c main_arg2) (V c main_v27) (((cfg0.win 5).blk t).view.emb j)
  refine (k0_pay2_at (iblk0 V c 0 t) (iblk0 V c 1 t) (iblk0 V c 3 t) j).trans ?_
  obtain ⟨ex0, ex1, ew0, ew1, ed0, ed1, eo1, -⟩ := idxA0 t
  unfold colMsg
  refine congrArg₂ (· * ·) (Finset.sum_congr rfl fun k _ => congrArg₂ (· * ·) ?_ ?_) (congrArg Ideal.rsqrt ?_)
  · show V c main_arg0 (((cfg0.win 0).blk t).view.emb (ix2 (j 0) k)) = _
    refine congrArg (V c main_arg0) (funext fun a => Fin.ext ?_)
    match a with
    | ⟨0, _⟩ =>
      show win0_0.index t (0 : Fin 2) * 2000 + 1 * (j 0).val = win0_5.index t (0 : Fin 2) * 2000 + 1 * (j 0).val
      rw [ex0]
    | ⟨1, _⟩ => show win0_0.index t (1 : Fin 2) * 128 + 1 * k.val = k.val; rw [ex1]; omega
  · show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; rw [ew0]; omega
    | ⟨1, _⟩ =>
      show win0_1.index t (1 : Fin 2) * 128 + 1 * (j 1).val = win0_5.index t (1 : Fin 2) * 128 + 1 * (j 1).val
      rw [ew1, eo1]
  · show V c main_v27 (((cfg0.win 3).blk t).view.emb (ix2 (j 0) (0 : Fin 1))) = _
    refine congrArg (V c main_v27) (funext fun a => Fin.ext ?_)
    match a with
    | ⟨0, _⟩ =>
      show win0_3.index t (0 : Fin 2) * 2000 + 1 * (j 0).val = win0_5.index t (0 : Fin 2) * 2000 + 1 * (j 0).val
      rw [ed0]
    | ⟨1, _⟩ => show win0_3.index t (1 : Fin 2) * 1 + 1 * (0 : Fin 1).val = (0 : Fin 1).val; rw [ed1]; rfl

/-- An index of the output array lies in point t's block iff each coordinate lies in the block's range. -/
theorem mem_blkA0 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v29_0).slice (win0_5.rect t)).set ↔ _
  rw [View.set_slice_whole, Rect.mem_set_unit]
  exact Iff.rfl

/-- Row r of the output lies in the block of point r / 2000: the blocks tile the array. -/
theorem coverA0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < cfg0.N := by show _ < grid0.N; rw [N_0]; omega
  refine ⟨⟨(i 0).val / 2000, hN⟩, flush0_5 _, ?_⟩
  rw [mem_blkA0]
  obtain ⟨-, -, -, -, -, -, eo1, eo0⟩ := idxA0 ⟨(i 0).val / 2000, hN⟩
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [eo0]
    show (i 0).val / 2000 * 2000 ≤ (i 0).val ∧ (i 0).val < (i 0).val / 2000 * 2000 + 2000
    omega
  | ⟨1, _⟩ =>
    show win0_5.index ⟨(i 0).val / 2000, hN⟩ (1 : Fin 2) * 128 ≤ (i 1).val
      ∧ (i 1).val < win0_5.index ⟨(i 0).val / 2000, hN⟩ (1 : Fin 2) * 128 + 128
    rw [eo1]
    omega

/-- THE ARRAY region 0 leaves in main_v29_0: the messages of the arrays it was entered with. -/
theorem arrA0 (c : Dev nD) :
    (dat0 V c).arrAt 5 cfg0.N = colMsg (V c main_arg0) (V c main_arg2) (V c main_v27) :=
  (dat0 V c).arrAt_eq_of_cover 5 _ (fun t _ => flushedA0 V c t) coverA0

/-- The block indices of region 0's windows, decided over its grid: the rows of X, of the degree column and of the
    output move together, one block of 2000 rows per point; W is whole at every point. -/
theorem idxA1 : ∀ t : Fin cfg0.N, win0_0.index t (0 : Fin 2) = win0_6.index t (0 : Fin 2) ∧ win0_0.index t (1 : Fin 2) = 0
    ∧ win0_2.index t (0 : Fin 2) = 0 ∧ win0_2.index t (1 : Fin 2) = 0
    ∧ win0_4.index t (0 : Fin 2) = win0_6.index t (0 : Fin 2) ∧ win0_4.index t (1 : Fin 2) = 0
    ∧ win0_6.index t (1 : Fin 2) = 0 ∧ win0_6.index t (0 : Fin 2) = t.val :=
  (by decide +kernel : ∀ t : Fin grid0.N, _)

/-- What point t writes back to output window 6 of region 0 is block t of the messages of the arrays the region finds. -/
theorem flushedA1 (c : Dev nD) (t : Fin cfg0.N) :
    (dat0 V c).flushed 6 t
      = ((cfg0.win 6).blk t).view.read (Elt Ideal) (colMsg (V c main_arg0) (V c main_arg4) (V c main_v28)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S2000x1) hz]
  funext j
  show k0_pay3 (iblk0 V c 0 t) (iblk0 V c 2 t) (iblk0 V c 4 t) j
    = colMsg (V c main_arg0) (V c main_arg4) (V c main_v28) (((cfg0.win 6).blk t).view.emb j)
  refine (k0_pay3_at (iblk0 V c 0 t) (iblk0 V c 2 t) (iblk0 V c 4 t) j).trans ?_
  obtain ⟨ex0, ex1, ew0, ew1, ed0, ed1, eo1, -⟩ := idxA1 t
  unfold colMsg
  refine congrArg₂ (· * ·) (Finset.sum_congr rfl fun k _ => congrArg₂ (· * ·) ?_ ?_) (congrArg Ideal.rsqrt ?_)
  · show V c main_arg0 (((cfg0.win 0).blk t).view.emb (ix2 (j 0) k)) = _
    refine congrArg (V c main_arg0) (funext fun a => Fin.ext ?_)
    match a with
    | ⟨0, _⟩ =>
      show win0_0.index t (0 : Fin 2) * 2000 + 1 * (j 0).val = win0_6.index t (0 : Fin 2) * 2000 + 1 * (j 0).val
      rw [ex0]
    | ⟨1, _⟩ => show win0_0.index t (1 : Fin 2) * 128 + 1 * k.val = k.val; rw [ex1]; omega
  · show V c main_arg4 (((cfg0.win 2).blk t).view.emb (ix2 k (j 1))) = _
    refine congrArg (V c main_arg4) (funext fun a => Fin.ext ?_)
    match a with
    | ⟨0, _⟩ => show win0_2.index t (0 : Fin 2) * 128 + 1 * k.val = k.val; rw [ew0]; omega
    | ⟨1, _⟩ =>
      show win0_2.index t (1 : Fin 2) * 128 + 1 * (j 1).val = win0_6.index t (1 : Fin 2) * 128 + 1 * (j 1).val
      rw [ew1, eo1]
  · show V c main_v28 (((cfg0.win 4).blk t).view.emb (ix2 (j 0) (0 : Fin 1))) = _
    refine congrArg (V c main_v28) (funext fun a => Fin.ext ?_)
    match a with
    | ⟨0, _⟩ =>
      show win0_4.index t (0 : Fin 2) * 2000 + 1 * (j 0).val = win0_6.index t (0 : Fin 2) * 2000 + 1 * (j 0).val
      rw [ed0]
    | ⟨1, _⟩ => show win0_4.index t (1 : Fin 2) * 1 + 1 * (0 : Fin 1).val = (0 : Fin 1).val; rw [ed1]; rfl

/-- An index of the output array lies in point t's block iff each coordinate lies in the block's range. -/
theorem mem_blkA1 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v29_1).slice (win0_6.rect t)).set ↔ _
  rw [View.set_slice_whole, Rect.mem_set_unit]
  exact Iff.rfl

/-- Row r of the output lies in the block of point r / 2000: the blocks tile the array. -/
theorem coverA1 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 2000 < cfg0.N := by show _ < grid0.N; rw [N_0]; omega
  refine ⟨⟨(i 0).val / 2000, hN⟩, flush0_6 _, ?_⟩
  rw [mem_blkA1]
  obtain ⟨-, -, -, -, -, -, eo1, eo0⟩ := idxA1 ⟨(i 0).val / 2000, hN⟩
  intro a
  match a with
  | ⟨0, _⟩ =>
    show win0_6.index ⟨(i 0).val / 2000, hN⟩ (0 : Fin 2) * 2000 ≤ (i 0).val
      ∧ (i 0).val < win0_6.index ⟨(i 0).val / 2000, hN⟩ (0 : Fin 2) * 2000 + 2000
    rw [eo0]
    show (i 0).val / 2000 * 2000 ≤ (i 0).val ∧ (i 0).val < (i 0).val / 2000 * 2000 + 2000
    omega
  | ⟨1, _⟩ =>
    show win0_6.index ⟨(i 0).val / 2000, hN⟩ (1 : Fin 2) * 128 ≤ (i 1).val
      ∧ (i 1).val < win0_6.index ⟨(i 0).val / 2000, hN⟩ (1 : Fin 2) * 128 + 128
    rw [eo1]
    omega

/-- THE ARRAY region 0 leaves in main_v29_1: the messages of the arrays it was entered with. -/
theorem arrA1 (c : Dev nD) :
    (dat0 V c).arrAt 6 cfg0.N = colMsg (V c main_arg0) (V c main_arg4) (V c main_v28) :=
  (dat0 V c).arrAt_eq_of_cover 6 _ (fun t _ => flushedA1 V c t) coverA1

/-- The block indices of region 1's windows, decided over its grid: the rows of X, of the degree column and of the
    output move together, one block of 2000 rows per point; W is whole at every point. -/
theorem idxB : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) = t.val :=
  (by decide +kernel : ∀ t : Fin grid1.N, _)

/-- What point t writes back to output window 3 of region 1 is block t of the messages of the arrays the region finds. -/
theorem flushedB (c : Dev nD) (t : Fin cfg1.N) :
    (dat1 V c).flushed 3 t
      = ((cfg1.win 3).blk t).view.read (Elt Ideal) (colMsg (V c main_arg1) (V c main_arg6) (V c main_v30)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S2000x1) hz]
  funext j
  show k1_pay1 (iblk1 V c 0 t) (iblk1 V c 1 t) (iblk1 V c 2 t) j
    = colMsg (V c main_arg1) (V c main_arg6) (V c main_v30) (((cfg1.win 3).blk t).view.emb j)
  refine (k1_pay1_at (iblk1 V c 0 t) (iblk1 V c 1 t) (iblk1 V c 2 t) j).trans ?_
  obtain ⟨ex0, ex1, ew0, ew1, ed0, ed1, eo1, -⟩ := idxB t
  unfold colMsg
  refine congrArg₂ (· * ·) (Finset.sum_congr rfl fun k _ => congrArg₂ (· * ·) ?_ ?_) (congrArg Ideal.rsqrt ?_)
  · show V c main_arg1 (((cfg1.win 0).blk t).view.emb (ix2 (j 0) k)) = _
    refine congrArg (V c main_arg1) (funext fun a => Fin.ext ?_)
    match a with
    | ⟨0, _⟩ =>
      show win1_0.index t (0 : Fin 2) * 2000 + 1 * (j 0).val = win1_3.index t (0 : Fin 2) * 2000 + 1 * (j 0).val
      rw [ex0]
    | ⟨1, _⟩ => show win1_0.index t (1 : Fin 2) * 128 + 1 * k.val = k.val; rw [ex1]; omega
  · show V c main_arg6 (((cfg1.win 1).blk t).view.emb (ix2 k (j 1))) = _
    refine congrArg (V c main_arg6) (funext fun a => Fin.ext ?_)
    match a with
    | ⟨0, _⟩ => show win1_1.index t (0 : Fin 2) * 128 + 1 * k.val = k.val; rw [ew0]; omega
    | ⟨1, _⟩ =>
      show win1_1.index t (1 : Fin 2) * 128 + 1 * (j 1).val = win1_3.index t (1 : Fin 2) * 128 + 1 * (j 1).val
      rw [ew1, eo1]
  · show V c main_v30 (((cfg1.win 2).blk t).view.emb (ix2 (j 0) (0 : Fin 1))) = _
    refine congrArg (V c main_v30) (funext fun a => Fin.ext ?_)
    match a with
    | ⟨0, _⟩ =>
      show win1_2.index t (0 : Fin 2) * 2000 + 1 * (j 0).val = win1_3.index t (0 : Fin 2) * 2000 + 1 * (j 0).val
      rw [ed0]
    | ⟨1, _⟩ => show win1_2.index t (1 : Fin 2) * 1 + 1 * (0 : Fin 1).val = (0 : Fin 1).val; rw [ed1]; rfl

/-- An index of the output array lies in point t's block iff each coordinate lies in the block's range. -/
theorem mem_blkB (t : Fin cfg1.N) (i : S20000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v31).slice (win1_3.rect t)).set ↔ _
  rw [View.set_slice_whole, Rect.mem_set_unit]
  exact Iff.rfl

/-- Row r of the output lies in the block of point r / 2000: the blocks tile the array. -/
theorem coverB (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  have hN : (i 0).val / 2000 < cfg1.N := by show _ < grid1.N; rw [N_1]; omega
  refine ⟨⟨(i 0).val / 2000, hN⟩, flush1_3 _, ?_⟩
  rw [mem_blkB]
  obtain ⟨-, -, -, -, -, -, eo1, eo0⟩ := idxB ⟨(i 0).val / 2000, hN⟩
  intro a
  match a with
  | ⟨0, _⟩ =>
    show win1_3.index ⟨(i 0).val / 2000, hN⟩ (0 : Fin 2) * 2000 ≤ (i 0).val
      ∧ (i 0).val < win1_3.index ⟨(i 0).val / 2000, hN⟩ (0 : Fin 2) * 2000 + 2000
    rw [eo0]
    show (i 0).val / 2000 * 2000 ≤ (i 0).val ∧ (i 0).val < (i 0).val / 2000 * 2000 + 2000
    omega
  | ⟨1, _⟩ =>
    show win1_3.index ⟨(i 0).val / 2000, hN⟩ (1 : Fin 2) * 128 ≤ (i 1).val
      ∧ (i 1).val < win1_3.index ⟨(i 0).val / 2000, hN⟩ (1 : Fin 2) * 128 + 128
    rw [eo1]
    omega

/-- THE ARRAY region 1 leaves in main_v31: the messages of the arrays it was entered with. -/
theorem arrB (c : Dev nD) :
    (dat1 V c).arrAt 3 cfg1.N = colMsg (V c main_arg1) (V c main_arg6) (V c main_v30) :=
  (dat1 V c).arrAt_eq_of_cover 3 _ (fun t _ => flushedB V c t) coverB

end Cert.KernelIdeal.MsgBlocks

end
-- ==== Proof.HostChain.lean ====
/-
  The idealized kernel's two results as functions of its arguments.

  At the first region's entry the arguments are as launched and the two out-degree columns of node set A hold the
  degrees; the region leaves the messages of relations 0 and 1. One reshape makes relation 2's out-degree column;
  the second region leaves relation 2's messages. The host operations after it gather, scatter-add, scale by the
  inverse square roots of the in-degrees and add the biases: the specification's aggregate of those messages. A
  degree column is the degree vector read at (p, 0), so the messages with the degrees held as a column are the
  specification's messages.
-/
import proofs.«159256_j69793218560321_2_alg».proof.Proof.HostPre
import proofs.«159256_j69793218560321_2_alg».proof.Proof.BlockValue
import proofs.«159256_j69793218560321_2_alg».proof.Proof.LibKeepdims

set_option maxRecDepth 16384

noncomputable section

open scoped BigOperators

namespace Cert.KernelIdeal.HostSide

open Cert.KernelIdeal Cert.KernelIdeal.Gen Cert.KernelIdeal.MsgBlocks Cert.DegreeNorm
open Idealize.ShloMosaic Idealize.ShloMosaic.ValueIdx Idealize.ShloMosaic.TcCoe Idealize.SL.Sem Idealize.ShloMosaic.StableHlo

/-- The messages with the degrees held as a column are the messages: the column reads the vector at (p, 0). -/
theorem colMsg_shapeCast {n : ℕ} (X : FVec Ideal ⟨2, ![n, 128]⟩ .f32) (W : FVec Ideal ⟨2, ![128, 128]⟩ .f32)
    (d : FVec Ideal ⟨1, ![n]⟩ .f32) (h : (⟨1, ![n]⟩ : Shape).ShapeCasts ⟨2, ![n, 1]⟩) :
    colMsg X W (shapeCast ⟨2, ![n, 1]⟩ d h) = msg X W d := by
  funext i
  obtain ⟨p, q, rfl⟩ : ∃ (p : Fin n) (q : Fin 128), i = ix2 p q := ⟨i 0, i 1, eq_ix2 i⟩
  show (∑ k : Fin 128, X (ix2 p k) * W (ix2 k q)) * Ideal.rsqrt (shapeCast ⟨2, ![n, 1]⟩ d h (ix2 p (0 : Fin 1)))
    = (∑ k : Fin 128, X (ix2 p k) * W (ix2 k q)) * Ideal.rsqrt (d (ix1 p))
  rw [LibKeepdims.shapeCast_a_a1_apply]

/-- The host operations after the second region, from any contents: the first result is the specification's aggregate
    of the two message arrays found, the inverse square roots of the two in-degree vectors found, the biases and the edge lists. -/
theorem tailA (U : Valuation τ sig (Elt Ideal)) :
    after hostOps2 U (Proc.devRef .tc main_v68)
      = Spec.aggA (U (Proc.devRef .tc main_v29_0)) (U (Proc.devRef .tc main_v31)) (Host.rsqrt (U (Proc.devRef .tc main_v8))) (Host.rsqrt (U (Proc.devRef .tc main_v26)))
          (U (Proc.devRef .tc main_arg3)) (U (Proc.devRef .tc main_arg7)) (U (Proc.devRef .tc main_arg8)) (U (Proc.devRef .tc main_arg9)) (U (Proc.devRef .tc main_arg12)) (U (Proc.devRef .tc main_arg13)) := by
  simp only [hostOps2]
  after_results_simp
  rfl

/-- The second result likewise. -/
theorem tailB (U : Valuation τ sig (Elt Ideal)) :
    after hostOps2 U (Proc.devRef .tc main_v86)
      = Spec.aggB (U (Proc.devRef .tc main_v29_1)) (Host.rsqrt (U (Proc.devRef .tc main_v17))) (U (Proc.devRef .tc main_arg5)) (U (Proc.devRef .tc main_arg10)) (U (Proc.devRef .tc main_arg11)) := by
  simp only [hostOps2]
  after_results_simp
  rfl

variable (m : (ℓ : Loc nD τ sig) → Buf (Elt Ideal) ℓ) (ρ : Dev nD → PrngReg) (c : Dev nD)

/-- The contents at the first region's entry are the launch contents after the host operations before it. -/
theorem W13_eq : W13 m ρ c = pre (W0 m ρ c) := rfl

/-- Relation 0's messages, as the first region leaves them. -/
theorem W14_v29_0 : W14 m ρ c (Proc.devRef .tc main_v29_0) = msg (m ((c : Thread nD τ).loc main_arg0)) (m ((c : Thread nD τ).loc main_arg2)) (degA6 (m ((c : Thread nD τ).loc main_arg8))) := by
  refine (W14_arr m ρ c 5).trans ?_
  refine (arrA0 (V13 m ρ) c).trans ?_
  show colMsg (n := 50000) (W13 m ρ c (Proc.devRef .tc main_arg0)) (W13 m ρ c (Proc.devRef .tc main_arg2)) (W13 m ρ c (Proc.devRef .tc main_v27)) = _
  rw [W13_eq, pre_arg0, pre_arg2, pre_v27]
  exact colMsg_shapeCast _ _ _ _

/-- Relation 1's messages, as the first region leaves them. -/
theorem W14_v29_1 : W14 m ρ c (Proc.devRef .tc main_v29_1) = msg (m ((c : Thread nD τ).loc main_arg0)) (m ((c : Thread nD τ).loc main_arg4)) (degA3 (m ((c : Thread nD τ).loc main_arg10))) := by
  refine (W14_arr m ρ c 6).trans ?_
  refine (arrA1 (V13 m ρ) c).trans ?_
  show colMsg (n := 50000) (W13 m ρ c (Proc.devRef .tc main_arg0)) (W13 m ρ c (Proc.devRef .tc main_arg4)) (W13 m ρ c (Proc.devRef .tc main_v28)) = _
  rw [W13_eq, pre_arg0, pre_arg4, pre_v28]
  exact colMsg_shapeCast _ _ _ _

/-- The one reshape between the regions writes relation 2's out-degree column and nothing else. -/
theorem W15_of_ne (r : Ref sig .tc) (h : r ≠ main_v30) : W15 m ρ c (Proc.devRef .tc r) = W14 m ρ c (Proc.devRef .tc r) := by
  show after hostOps1 (W14 m ρ c) (Proc.devRef .tc r) = _
  simp only [hostOps1, after_cons, after_nil]
  apply reshape_result_ne
  exact h

theorem W15_v30 : W15 m ρ c (Proc.devRef .tc main_v30) = shapeCast S20000x1 (degB3 (m ((c : Thread nD τ).loc main_arg12))) shapeCasts_S20000_S20000x1 := by
  show after hostOps1 (W14 m ρ c) (Proc.devRef .tc main_v30) = _
  simp only [hostOps1]
  after_results_simp
  rw [W14_of_ne m ρ c main_v22 (by decide), W13_eq, pre_v22]
  rfl

/-- Relation 2's messages, as the second region leaves them. -/
theorem W16_v31 : W16 m ρ c (Proc.devRef .tc main_v31) = msg (m ((c : Thread nD τ).loc main_arg1)) (m ((c : Thread nD τ).loc main_arg6)) (degB3 (m ((c : Thread nD τ).loc main_arg12))) := by
  refine (W16_arr m ρ c 3).trans ?_
  refine (arrB (V15 m ρ) c).trans ?_
  show colMsg (n := 20000) (W15 m ρ c (Proc.devRef .tc main_arg1)) (W15 m ρ c (Proc.devRef .tc main_arg6)) (W15 m ρ c (Proc.devRef .tc main_v30)) = _
  rw [W15_v30, W15_of_ne m ρ c main_arg1 (by decide), W15_of_ne m ρ c main_arg6 (by decide),
    W14_of_ne m ρ c main_arg1 (by decide), W14_of_ne m ρ c main_arg6 (by decide), W13_eq, pre_arg1, pre_arg6]
  exact colMsg_shapeCast _ _ _ _

/-- A buffer that is no array of either region and not the reshape's result is, after the second region, as the
    host operations before the first region left it. -/
theorem W16_keep (r : Ref sig .tc) (h1 : ∀ w, Pipeline.arrRef spec1 w ≠ r) (h30 : r ≠ main_v30)
    (h0 : ∀ w, Pipeline.arrRef spec0 w ≠ r) : W16 m ρ c (Proc.devRef .tc r) = pre (W0 m ρ c) (Proc.devRef .tc r) :=
  (W16_of_ne m ρ c r h1).trans ((W15_of_ne m ρ c r h30).trans (W14_of_ne m ρ c r h0))

theorem W16_v29_0 : W16 m ρ c (Proc.devRef .tc main_v29_0) = msg (m ((c : Thread nD τ).loc main_arg0)) (m ((c : Thread nD τ).loc main_arg2)) (degA6 (m ((c : Thread nD τ).loc main_arg8))) :=
  (W16_of_ne m ρ c main_v29_0 (by decide)).trans ((W15_of_ne m ρ c main_v29_0 (by decide)).trans (W14_v29_0 m ρ c))

theorem W16_v29_1 : W16 m ρ c (Proc.devRef .tc main_v29_1) = msg (m ((c : Thread nD τ).loc main_arg0)) (m ((c : Thread nD τ).loc main_arg4)) (degA3 (m ((c : Thread nD τ).loc main_arg10))) :=
  (W16_of_ne m ρ c main_v29_1 (by decide)).trans ((W15_of_ne m ρ c main_v29_1 (by decide)).trans (W14_v29_1 m ρ c))

theorem W16_main_v8 : W16 m ρ c (Proc.devRef .tc main_v8) = pre (W0 m ρ c) (Proc.devRef .tc main_v8) :=
  W16_keep m ρ c main_v8 (by decide) (by decide) (by decide)
theorem W16_main_v17 : W16 m ρ c (Proc.devRef .tc main_v17) = pre (W0 m ρ c) (Proc.devRef .tc main_v17) :=
  W16_keep m ρ c main_v17 (by decide) (by decide) (by decide)
theorem W16_main_v26 : W16 m ρ c (Proc.devRef .tc main_v26) = pre (W0 m ρ c) (Proc.devRef .tc main_v26) :=
  W16_keep m ρ c main_v26 (by decide) (by decide) (by decide)
theorem W16_main_arg3 : W16 m ρ c (Proc.devRef .tc main_arg3) = pre (W0 m ρ c) (Proc.devRef .tc main_arg3) :=
  W16_keep m ρ c main_arg3 (by decide) (by decide) (by decide)
theorem W16_main_arg5 : W16 m ρ c (Proc.devRef .tc main_arg5) = pre (W0 m ρ c) (Proc.devRef .tc main_arg5) :=
  W16_keep m ρ c main_arg5 (by decide) (by decide) (by decide)
theorem W16_main_arg7 : W16 m ρ c (Proc.devRef .tc main_arg7) = pre (W0 m ρ c) (Proc.devRef .tc main_arg7) :=
  W16_keep m ρ c main_arg7 (by decide) (by decide) (by decide)
theorem W16_main_arg8 : W16 m ρ c (Proc.devRef .tc main_arg8) = pre (W0 m ρ c) (Proc.devRef .tc main_arg8) :=
  W16_keep m ρ c main_arg8 (by decide) (by decide) (by decide)
theorem W16_main_arg9 : W16 m ρ c (Proc.devRef .tc main_arg9) = pre (W0 m ρ c) (Proc.devRef .tc main_arg9) :=
  W16_keep m ρ c main_arg9 (by decide) (by decide) (by decide)
theorem W16_main_arg10 : W16 m ρ c (Proc.devRef .tc main_arg10) = pre (W0 m ρ c) (Proc.devRef .tc main_arg10) :=
  W16_keep m ρ c main_arg10 (by decide) (by decide) (by decide)
theorem W16_main_arg11 : W16 m ρ c (Proc.devRef .tc main_arg11) = pre (W0 m ρ c) (Proc.devRef .tc main_arg11) :=
  W16_keep m ρ c main_arg11 (by decide) (by decide) (by decide)
theorem W16_main_arg12 : W16 m ρ c (Proc.devRef .tc main_arg12) = pre (W0 m ρ c) (Proc.devRef .tc main_arg12) :=
  W16_keep m ρ c main_arg12 (by decide) (by decide) (by decide)
theorem W16_main_arg13 : W16 m ρ c (Proc.devRef .tc main_arg13) = pre (W0 m ρ c) (Proc.devRef .tc main_arg13) :=
  W16_keep m ρ c main_arg13 (by decide) (by decide) (by decide)

/-- THE FIRST RESULT of the idealized kernel is the specification's `outA` of its arguments. -/
theorem kernel_outA :
    W17 m ρ c (Proc.devRef .tc main_v68)
      = Spec.outA (m ((c : Thread nD τ).loc main_arg0)) (m ((c : Thread nD τ).loc main_arg1)) (m ((c : Thread nD τ).loc main_arg2)) (m ((c : Thread nD τ).loc main_arg6)) (m ((c : Thread nD τ).loc main_arg3)) (m ((c : Thread nD τ).loc main_arg7)) (m ((c : Thread nD τ).loc main_arg8)) (m ((c : Thread nD τ).loc main_arg9)) (m ((c : Thread nD τ).loc main_arg12)) (m ((c : Thread nD τ).loc main_arg13)) := by
  show after hostOps2 (W16 m ρ c) (Proc.devRef .tc main_v68) = _
  rw [tailA, W16_v29_0, W16_v31, W16_main_v8, W16_main_v26, W16_main_arg3, W16_main_arg7, W16_main_arg8, W16_main_arg9,
    W16_main_arg12, W16_main_arg13, pre_v8, pre_v26, pre_arg3, pre_arg7, pre_arg8, pre_arg9, pre_arg12, pre_arg13,
    degA6_spec, degA6_spec, degB3_spec, degA3_spec]
  rfl

/-- THE SECOND RESULT of the idealized kernel is the specification's `outB` of its arguments. -/
theorem kernel_outB :
    W17 m ρ c (Proc.devRef .tc main_v86) = Spec.outB (m ((c : Thread nD τ).loc main_arg0)) (m ((c : Thread nD τ).loc main_arg4)) (m ((c : Thread nD τ).loc main_arg5)) (m ((c : Thread nD τ).loc main_arg10)) (m ((c : Thread nD τ).loc main_arg11)) := by
  show after hostOps2 (W16 m ρ c) (Proc.devRef .tc main_v86) = _
  rw [tailB, W16_v29_1, W16_main_v17, W16_main_arg5, W16_main_arg10, W16_main_arg11, pre_v17, pre_arg5, pre_arg10, pre_arg11,
    degA3_spec, degB3_spec]
  rfl

end Cert.KernelIdeal.HostSide

end
-- ==== Proof.RefValue.lean ====
/-
  The reference's two results are `outA` and `outB` of its arguments.

  The reference spells the messages of a relation as a dot_general times the degrees' power -1/2, and the in-degree
  scale as the power -1/2 too; every degree being a real not below 1, these are the messages and the inverse
  square roots of the specification, and the rest of each result — gather, scatter-add, scale, bias — is the
  specification's own text.
-/
import proofs.«159256_j69793218560321_2_alg».proof.Proof.Gen.ReferenceIdeal.Run
import proofs.«159256_j69793218560321_2_alg».proof.Proof.Aggregate

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

/-- The first result's term of the arguments is the specification's. -/
theorem res_outA (c : Dev nD) :
    res_main_v66 (F := Ideal) m c
      = Spec.outA (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  unfold res_main_v66
  exact Spec.ref_outA (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))

/-- The reference's run with its two results named by the specification. -/
theorem run (ρ : Dev nD → PrngReg) :
    θ_run defs (onTc (τ := τ) (main (F := Ideal))) ⟨m, fun _ => 0, ρ⟩ fun r => ∀ c : Dev nD,
      r.2.mem ((c.tc : Thread nD τ).loc main_v66)
          = Spec.outA (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v99) = Spec.outB (m ((c.tc : Thread nD τ).loc main_arg0)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (res_outA m c), (h c).2.1.trans (Spec.ref_outB (m ((c.tc : Thread nD τ).loc main_arg0)) (m ((c.tc : Thread nD τ).loc main_arg4)) (m ((c.tc : Thread nD τ).loc main_arg5)) (m ((c.tc : Thread nD τ).loc main_arg10)) (m ((c.tc : Thread nD τ).loc main_arg11))), (h c).2.2⟩)
    (Value.run (F := Ideal) m ρ)

end Cert.ReferenceIdeal.RefValue

end
-- ==== Proof.lean ====
/-
  A three-relation graph convolution over two node sets, normalised by the square roots of the degrees at both
  ends: the kernel against its reference, on the extended reals.

  Both programs compute, for each relation, the messages  (X·W)[p, ·] · deg_out[p]^(-1/2),  gather them at the
  source rows of the edges, sum them into the destination rows, scale row i by deg_in[i]^(-1/2) and add the bias;
  node set A receives two relations, added, node set B one. They differ in three places only. The kernel forms the
  product X·W block by block on the matrix unit, into a zero accumulator, where the reference has one dot_general:
  at exact values both are the sum over k of X[p, k]·W[k, q]. The kernel rounds its messages to a shorter float
  format and widens them again: at exact values the identity. And the kernel takes inverse square roots where the
  reference raises to the power -1/2: a degree is the larger of 1 and a count, a real number not below 1, and there
  1/√s = s^(-1/2). No law of arithmetic that could fail at an infinity is used, so the finiteness of the inputs is
  never needed: index by index the two programs evaluate one expression.

  The three frame claims are the generated frames (the reference's is its generated run with the results dropped);
  the kernel's idealization rewrote no operation, so its `preserves` claim is `True`.
-/
import proofs.«159256_j69793218560321_2_alg».proof.Defs
import proofs.«159256_j69793218560321_2_alg».proof.Proof.Gen.Kernel
import proofs.«159256_j69793218560321_2_alg».proof.Proof.Gen.Kernel.Skeleton
import proofs.«159256_j69793218560321_2_alg».proof.Proof.Gen.Kernel.Launch
import proofs.«159256_j69793218560321_2_alg».proof.Proof.Gen.Kernel.Points
import proofs.«159256_j69793218560321_2_alg».proof.Proof.Gen.Kernel.Frame
import proofs.«159256_j69793218560321_2_alg».proof.Proof.Gen.KernelIdeal
import proofs.«159256_j69793218560321_2_alg».proof.Proof.Gen.KernelIdeal.Skeleton
import proofs.«159256_j69793218560321_2_alg».proof.Proof.Gen.KernelIdeal.Launch
import proofs.«159256_j69793218560321_2_alg».proof.Proof.Gen.KernelIdeal.Points
import proofs.«159256_j69793218560321_2_alg».proof.Proof.Gen.KernelIdeal.Frame
import proofs.«159256_j69793218560321_2_alg».proof.Proof.Gen.ReferenceIdeal
import proofs.«159256_j69793218560321_2_alg».proof.Proof.Gen.Pre_finite_inputs
import proofs.«159256_j69793218560321_2_alg».proof.Proof.Gen.ReferenceIdeal.Run
import proofs.«159256_j69793218560321_2_alg».proof.Proof.KernelRun
import proofs.«159256_j69793218560321_2_alg».proof.Proof.HostChain
import proofs.«159256_j69793218560321_2_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's two results of those
    arguments: the kernel's run read through its two regions and its host operations, the reference's run read
    through its host operations. -/
theorem algebraic : Cert.algebraic_KernelIdeal_ReferenceIdeal := by
  intro m ρ m' ρ' _ hagree
  refine ⟨fun c => Cert.Spec.outA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Spec.outB (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.HostSide.kernel_outA m ρ c),
        (h c).2.1.trans (Cert.KernelIdeal.HostSide.kernel_outB m ρ c), (h c).2.2⟩)
      (Cert.KernelIdeal.GenP.run_results m ρ)
  · refine (θ_run Cert.ReferenceIdeal.defs _ _).mono (fun r h c => ?_) (Cert.ReferenceIdeal.RefValue.run m' ρ')
    obtain ⟨e0, e1, e2, e3, e4, e5, e6, e7, e8, e9, e10, e11, e12, e13⟩ := hagree c
    refine ⟨?_, ?_, (h c).2.2⟩
    · rw [(h c).1, e0, e1, e2, e3, e6, e7, e8, e9, e12, e13]
    · rw [(h c).2.1, e0, e4, e5, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
